-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S50000x128 : Shape := ⟨2, ![50000, 128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S50000x128 : S_.BroadcastsInDim S50000x128 (![] : Fin 0 → Fin S50000x128.rank)
  reducesTo_S50000x128_S_d0_1 : S50000x128.ReducesTo [0, 1] S_

variable [Facts]

def fn_part1 {F : FTy → Type} [FloatOps F] (main_arg5 : FVec F S128 .f32) (main_arg6 : FVec F S50000x128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S50000x128 .f32 := Host.absf main_arg6
  let main_cst_8 : FVec F S_ .f32 := constant S_ .f32 0x7F800000#32
  let main_v25 : FVec F S50000x128 .f32 := broadcastInDim S50000x128 ![] bcast_S_S50000x128 main_cst_8
  let main_v26 : IVec S50000x128 1 := cmpf .olt main_v24 main_v25
  let main_c_9 : IVec S_ 1 := constantI S_ 1 1#1
  let main_v27 : IVec S_ 1 := (fun x v => Host.reduce IntOp.andi x v reducesTo_S50000x128_S_d0_1 h_S_) main_v26 main_c_9
  let main_v28 : IVec S_ 1 := andi main_v23 main_v27
  main_v28

def fn {F : FTy → Type} [FloatOps F] (main_arg0 : FVec F S50000x256 .f32) (main_arg1 : IVec S2x800000 32) (main_arg2 : FVec F S256x128 .f32) (main_arg3 : FVec F S128 .f32) (main_arg4 : FVec F S256x128 .f32) (main_arg5 : FVec F S128 .f32) (main_arg6 : FVec F S50000x128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S50000x128 : Shape := ⟨2, ![50000, 128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x256 : Shape := ⟨2, ![800000, 256]⟩
abbrev S50000x1 : Shape := ⟨2, ![50000, 1]⟩
abbrev S256x256 : Shape := ⟨2, ![256, 256]⟩
abbrev S256 : Shape := ⟨1, ![256]⟩
abbrev S1x256 : Shape := ⟨2, ![1, 256]⟩
abbrev S2000x256 : Shape := ⟨2, ![2000, 256]⟩
abbrev S2000x128 : Shape := ⟨2, ![2000, 128]⟩

abbrev nBuf : Space → Nat
  | .hbm => 65
  | .vmem => 8
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S50000x128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000, .f32⟩
  | .hbm, ⟨39, _⟩ => ⟨S800000, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x256, .f32⟩
  | .hbm, ⟨49, _⟩ => ⟨S800000x1, .f32⟩
  | .hbm, ⟨50, _⟩ => ⟨S800000x256, .f32⟩
  | .hbm, ⟨51, _⟩ => ⟨S800000x256, .f32⟩
  | .hbm, ⟨52, _⟩ => ⟨S_, .f32⟩
  | .hbm, ⟨53, _⟩ => ⟨S50000x256, .f32⟩
  | .hbm, ⟨54, _⟩ => ⟨S800000x1, .i32⟩
  | .hbm, ⟨55, _⟩ => ⟨S50000x256, .f32⟩
  | .hbm, ⟨56, _⟩ => ⟨S50000, .f32⟩
  | .hbm, ⟨57, _⟩ => ⟨S50000x1, .f32⟩
  | .hbm, ⟨58, _⟩ => ⟨S50000x256, .f32⟩
  | .hbm, ⟨59, _⟩ => ⟨S50000x256, .f32⟩
  | .hbm, ⟨60, _⟩ => ⟨S50000x256, .f32⟩
  | .hbm, ⟨61, _⟩ => ⟨S256x256, .f32⟩
  | .hbm, ⟨62, _⟩ => ⟨S256, .f32⟩
  | .hbm, ⟨63, _⟩ => ⟨S1x256, .f32⟩
  | .hbm, ⟨64, _⟩ => ⟨S50000x128, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S1x256, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_c_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  concatenates_S256x128_S256x128_S256x256_d1 : Shape.Concatenates [S256x128, S256x128] S256x256 1
  concatenates_S128_S128_S256_d0 : Shape.Concatenates [S128, S128] S256 0
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  slices_S2000x256_o0_0_S2000x128 : S2000x256.Slices ![0, 0] S2000x128
  slices_S2000x256_o0_128_S2000x128 : S2000x256.Slices ![0, 128] S2000x128
  inb_S2000x128_S2000x128_0_0 : ∀ a, (![0, 0] : Fin 2 → Nat) a + S2000x128.size a ≤ S2000x128.size a
  h_S2000x128 : 0 < S2000x128.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v43) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v44) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v46) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v47) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S50000x128 : Shape := ⟨2, ![50000, 128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩

abbrev nBuf : Space → Nat
  | .hbm => 129
  | .vmem => 0
  | .smem => 0
  | _ => 0

abbrev hbmTy0_0 (i : Nat) : BufTy := match i % 128 with
  | 0 => ⟨S50000x256, .f32⟩
  | 1 => ⟨S2x800000, .i32⟩
  | 2 => ⟨S256x128, .f32⟩
  | 3 => ⟨S128, .f32⟩
  | 4 => ⟨S256x128, .f32⟩
  | 5 => ⟨S128, .f32⟩
  | 6 => ⟨S50000x128, .f32⟩
  | 7 => ⟨S1x800000, .i32⟩
  | 8 => ⟨S800000, .i32⟩
  | 9 => ⟨S1x800000, .i32⟩
  | 10 => ⟨S800000, .i32⟩
  | 11 => ⟨S50000x128, .f32⟩
  | 12 => ⟨S_, .f32⟩
  | 13 => ⟨S800000, .f32⟩
  | 14 => ⟨S_, .f32⟩
  | 15 => ⟨S50000, .f32⟩
  | 16 => ⟨S800000x1, .i32⟩
  | 17 => ⟨S50000, .f32⟩
  | 18 => ⟨S_, .f32⟩
  | 19 => ⟨S50000, .f32⟩
  | 20 => ⟨S50000, .f32⟩
  | 21 => ⟨S50000, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000, .f32⟩
  | 40 => ⟨S800000, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x128, .f32⟩
  | 50 => ⟨S800000x1, .f32⟩
  | 51 => ⟨S800000x128, .f32⟩
  | 52 => ⟨S800000x128, .f32⟩
  | 53 => ⟨S_, .f32⟩
  | 54 => ⟨S50000x128, .f32⟩
  | 55 => ⟨S800000x1, .i32⟩
  | 56 => ⟨S50000x128, .f32⟩
  | 57 => ⟨S50000, .f32⟩
  | 58 => ⟨S50000x1, .f32⟩
  | 59 => ⟨S50000x128, .f32⟩
  | 60 => ⟨S50000x128, .f32⟩
  | 61 => ⟨S50000x128, .f32⟩
  | 62 => ⟨S1x128, .f32⟩
  | 63 => ⟨S50000x128, .f32⟩
  | 64 => ⟨S50000x128, .f32⟩
  | 65 => ⟨S1x800000, .i32⟩
  | 66 => ⟨S800000, .i32⟩
  | 67 => ⟨S1x800000, .i32⟩
  | 68 => ⟨S800000, .i32⟩
  | 69 => ⟨S50000x128, .f32⟩
  | 70 => ⟨S_, .f32⟩
  | 71 => ⟨S800000, .f32⟩
  | 72 => ⟨S_, .f32⟩
  | 73 => ⟨S50000, .f32⟩
  | 74 => ⟨S800000x1, .i32⟩
  | 75 => ⟨S50000, .f32⟩
  | 76 => ⟨S_, .f32⟩
  | 77 => ⟨S50000, .f32⟩
  | 78 => ⟨S50000, .f32⟩
  | 79 => ⟨S50000, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000, .f32⟩
  | 98 => ⟨S800000, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000x128, .f32⟩
  | 108 => ⟨S800000x1, .f32⟩
  | 109 => ⟨S800000x128, .f32⟩
  | 110 => ⟨S800000x128, .f32⟩
  | 111 => ⟨S_, .f32⟩
  | 112 => ⟨S50000x128, .f32⟩
  | 113 => ⟨S800000x1, .i32⟩
  | 114 => ⟨S50000x128, .f32⟩
  | 115 => ⟨S50000, .f32⟩
  | 116 => ⟨S50000x1, .f32⟩
  | 117 => ⟨S50000x128, .f32⟩
  | 118 => ⟨S50000x128, .f32⟩
  | 119 => ⟨S50000x128, .f32⟩
  | 120 => ⟨S1x128, .f32⟩
  | 121 => ⟨S50000x128, .f32⟩
  | 122 => ⟨S50000x128, .f32⟩
  | 123 => ⟨S_, .f32⟩
  | 124 => ⟨S50000x128, .f32⟩
  | 125 => ⟨S50000x128, .f32⟩
  | 126 => ⟨S50000x128, .f32⟩
  | 127 => ⟨S50000x128, .f32⟩
  | _ => ⟨S50000x256, .f32⟩

abbrev hbmTy0_1 (i : Nat) : BufTy := match i % 128 with
  | 0 => ⟨S50000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_8 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_10 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c_11 : Ref sig .tc := ⟨.hbm, 80, rfl⟩
abbrev main_v60 : Ref sig .tc := ⟨.hbm, 81, rfl⟩
abbrev main_v61 : Ref sig .tc := ⟨.hbm, 82, rfl⟩
abbrev main_c_12 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_c_13 : Ref sig .tc := ⟨.hbm, 89, rfl⟩
abbrev main_v67 : Ref sig .tc := ⟨.hbm, 90, rfl⟩
abbrev main_v68 : Ref sig .tc := ⟨.hbm, 91, rfl⟩
abbrev main_c_14 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_c_15 : Ref sig .tc := ⟨.hbm, 99, rfl⟩
abbrev main_v75 : Ref sig .tc := ⟨.hbm, 100, rfl⟩
abbrev main_v76 : Ref sig .tc := ⟨.hbm, 101, rfl⟩
abbrev main_c_16 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_17 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_18 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x256_S256x128_S50000x128_1_0_0_1_n_n_wf : DotDims.WF S50000x256 S256x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.LibRealValued.lean ====
/-
  Extended reals that are real numbers.

  The arithmetic of the extended reals is the arithmetic of the reals away from the infinities: sums, products and
  maxima of real values are real values, and so is a finite sum of them.  One law of subtraction that fails at the
  infinities holds as soon as the MIDDLE term is real: `a - (b + c) = (a - b) - c`.  It is the law that turns a
  log-softmax written `x - (m + log s)` into the one written `(x - m) - log s`.
-/
import Idealize.ShloMosaic.PureOps.Ideal

open scoped BigOperators

namespace Cert.RealValued

/-- An extended real that is the image of a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.one : IsReal 1 := ⟨1, rfl⟩

theorem IsReal.ne_bot {x : EReal} (h : IsReal x) : x ≠ ⊥ := by
  obtain ⟨r, rfl⟩ := h; exact EReal.coe_ne_bot r

theorem IsReal.ne_top {x : EReal} (h : IsReal x) : x ≠ ⊤ := by
  obtain ⟨r, rfl⟩ := h; exact EReal.coe_ne_top r

theorem isReal_of_ne {x : EReal} (hb : x ≠ ⊥) (ht : x ≠ ⊤) : IsReal x := by
  induction x using EReal.rec with
  | bot => exact absurd rfl hb
  | top => exact absurd rfl ht
  | coe r => exact ⟨r, rfl⟩

theorem IsReal.add {x y : EReal} (hx : IsReal x) (hy : IsReal y) : IsReal (x + y) := by
  obtain ⟨a, rfl⟩ := hx; obtain ⟨b, rfl⟩ := hy; exact ⟨a + b, EReal.coe_add a b⟩

theorem IsReal.mul {x y : EReal} (hx : IsReal x) (hy : IsReal y) : IsReal (x * y) := by
  obtain ⟨a, rfl⟩ := hx; obtain ⟨b, rfl⟩ := hy; exact ⟨a * b, EReal.coe_mul a b⟩

theorem IsReal.max {x y : EReal} (hx : IsReal x) (hy : IsReal y) : IsReal (max x y) := by
  rcases le_total x y with h | h
  · rw [max_eq_right h]; exact hy
  · rw [max_eq_left h]; exact hx

theorem IsReal.ite {p : Prop} [Decidable p] {x y : EReal} (hx : IsReal x) (hy : IsReal y) : IsReal (if p then x else y) := by
  split
  · exact hx
  · exact hy

/-- A finite sum of real values is a real value. -/
theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- The maximum of real values over a nonempty finite family, folded from the bottom element, is a real value. -/
theorem IsReal.fold_max {ι : Type*} (s : Finset ι) (f : ι → EReal) (hs : s.Nonempty) (h : ∀ i ∈ s, IsReal (f i)) :
    IsReal (s.fold Max.max ⊥ f) := by
  classical
  have key : ∀ t : Finset ι, (∀ i ∈ t, IsReal (f i)) → (t = ∅ ∧ t.fold Max.max ⊥ f = ⊥) ∨ IsReal (t.fold Max.max ⊥ f) := by
    intro t
    induction t using Finset.induction_on with
    | empty => intro _; exact Or.inl ⟨rfl, Finset.fold_empty⟩
    | insert a t ha ih =>
      intro ht
      rw [Finset.fold_insert ha]
      rcases ih (fun i hi => ht i (Finset.mem_insert_of_mem hi)) with ⟨_, e⟩ | hr
      · rw [e, max_bot_right]; exact Or.inr (ht a (Finset.mem_insert_self a t))
      · exact Or.inr ((ht a (Finset.mem_insert_self a t)).max hr)
  rcases key s h with ⟨e, _⟩ | hr
  · exact absurd e hs.ne_empty
  · exact hr

/-- Subtracting a sum whose first term is real: the subtraction distributes. -/
theorem sub_add_eq_sub_sub_of_isReal (a c : EReal) {b : EReal} (hb : IsReal b) : a - (b + c) = a - b - c := by
  rw [sub_eq_add_neg, sub_eq_add_neg, sub_eq_add_neg, EReal.neg_add (Or.inl hb.ne_bot) (Or.inl hb.ne_top), sub_eq_add_neg,
    add_assoc]

end Cert.RealValued
-- ==== Proof.LibRealArrays.lean ====
/-
  Arrays all of whose entries are real numbers, and the operations that keep them so.

  A gather and a broadcast only move entries; a scatter-add adds, to each entry, a finite sum of update entries; a
  matrix product is a finite sum of products; the pointwise sum, product and maximum of real entries are real.  None of
  this looks at WHERE an index list points: it holds for every index list.  One pointwise case uses the values: the
  inverse square root is taken only where its argument is positive, and there it is a real number.
-/
import proofs.«152276_j4269197492518_2_alg».proof.Proof.LibRealValued
import Idealize.ShloMosaic.PureOps.Ideal.Laws

noncomputable section

namespace Cert.RealArrays

open Idealize.ShloMosaic Cert.RealValued
open scoped BigOperators

/-- Every entry is a real number. -/
def AllReal {S : Shape} (v : S.Idx → EReal) : Prop := ∀ i, IsReal (v i)

theorem allReal_broadcastInDim {s t : Shape} (dims : Fin s.rank → Fin t.rank) (h : s.BroadcastsInDim t dims)
    (x : s.Idx → EReal) (hx : AllReal x) : AllReal (broadcastInDim t dims h x) := fun _ => hx _

theorem allReal_gather {s si t : Shape} {w : Nat} (d : GatherDims s si t) (x : s.Idx → EReal) (idx : IVec si w)
    (hx : AllReal x) : AllReal (Host.gather d x idx) := fun _ => hx _

theorem allReal_scatterAdd {s si su : Shape} {w : Nat} (d : ScatterDims s si su) (x : s.Idx → EReal) (idx : IVec si w)
    (u : su.Idx → EReal) (hx : AllReal x) (hu : AllReal u) :
    AllReal (Host.scatterAdd (F := Ideal) (φ := .f32) d x idx u) := fun i => by
  show IsReal (x i + ∑ j ∈ Finset.univ.filter (fun j => d.resultIdx? j idx = some i), u j)
  exact (hx i).add (IsReal.sum _ _ fun j _ => hu j)

theorem allReal_dotGeneral {sl sr so : Shape} (d : DotDims sl sr so) (prec : Option ContractPrecision)
    (x : sl.Idx → EReal) (y : sr.Idx → EReal) (hx : AllReal x) (hy : AllReal y) :
    AllReal (Host.dotGeneral (F := Ideal) (φ₁ := .f32) (φ₂ := .f32) d prec x y) := fun j => by
  simp only [Host.dotGeneral]
  rw [Ideal.dotGeneral_apply]
  exact IsReal.sum _ _ fun k _ => (hx _).mul (hy _)

theorem allReal_mulf {s : Shape} (x y : s.Idx → EReal) (hx : AllReal x) (hy : AllReal y) :
    AllReal (mulf (F := Ideal) (φ := .f32) x y) := fun i => (hx i).mul (hy i)

theorem allReal_addf {s : Shape} (x y : s.Idx → EReal) (hx : AllReal x) (hy : AllReal y) :
    AllReal (addf (F := Ideal) (φ := .f32) x y) := fun i => (hx i).add (hy i)

theorem allReal_maximumf {s : Shape} (x y : s.Idx → EReal) (hx : AllReal x) (hy : AllReal y) :
    AllReal (maximumf (F := Ideal) (φ := .f32) x y) := fun i => (hx i).max (hy i)

/-- A bit pattern whose exponent field is not all ones denotes a real number. -/
theorem isReal_ieee (e mant : Nat) {w : Nat} (b : BitVec w) (h : (b.extractLsb' mant e).toNat ≠ 2 ^ e - 1) :
    IsReal (Ideal.ieee e mant b) := by
  unfold Ideal.ieee
  simp only [if_neg h]
  split
  · exact ⟨_, rfl⟩
  · exact ⟨_, rfl⟩

/-- The patterns of zero and of one denote real numbers. -/
theorem isReal_zeroPattern : IsReal (Ideal.ofBits .f32 0x00000000#32) := by
  show IsReal (Ideal.ieee 8 23 (0x00000000#32 : BitVec 32))
  exact isReal_ieee 8 23 _ (by decide)
theorem isReal_onePattern : IsReal (Ideal.ofBits .f32 0x3F800000#32) := by
  show IsReal (Ideal.ieee 8 23 (0x3F800000#32 : BitVec 32))
  exact isReal_ieee 8 23 _ (by decide)

theorem allReal_constant {s : Shape} (b : BitVec 32) (hb : IsReal (Ideal.ofBits .f32 b)) :
    AllReal (constant (F := Ideal) s .f32 b) := fun _ => hb

/-- Where the argument is positive take its inverse square root, elsewhere the other value: a real number when the
    argument and the other value are. -/
theorem isReal_select_rsqrt (d z : EReal) (hd : IsReal d) (hz : IsReal z) :
    IsReal (Scalar.select (Ideal.cmp .ogt d (Ideal.ofBits .f32 0x00000000#32)) (Ideal.rsqrt d) z) := by
  obtain ⟨r, rfl⟩ := hd
  rw [Ideal.ofBits_zero_f32]
  unfold Scalar.select Ideal.cmp
  by_cases hr : (0 : EReal) < (r : EReal)
  · have hr' : 0 < r := EReal.coe_pos.mp hr
    simp only [hr, decide_true, BitVec.ofBool_true, if_true]
    rw [Ideal.rsqrt_coe, if_neg (not_lt.mpr hr'.le), if_neg hr'.ne']
    exact ⟨_, rfl⟩
  · simp only [hr, decide_false, BitVec.ofBool_false]
    rw [if_neg (by decide)]
    exact hz

end Cert.RealArrays

end
-- ==== Proof.Finite.lean ====
/-
  What the precondition gives: every entry of the node features and of the two weight matrices is a real number.

  The precondition is the conjunction, over the float inputs, of "every entry has absolute value below +∞".  An
  extended real whose absolute value max x (-x) is below +∞ is neither infinity, so it is a real number.  Only the
  three inputs that are multiplied across a sum (the features and the two weight matrices) are read here; the biases
  and the noise are only added or multiplied pointwise on both sides and need no finiteness.
-/
import proofs.«152276_j4269197492518_2_alg».proof.Pre_finite_inputs
import proofs.«152276_j4269197492518_2_alg».proof.Proof.LibRealArrays
import Idealize.ShloMosaic.Lib.ReduceAll
import Idealize.ShloMosaic.Lib.ValueIdx

noncomputable section

namespace Cert.Finite

open Idealize.ShloMosaic Idealize.ShloMosaic.ValueIdx Cert.RealValued Cert.RealArrays

/-- The pattern of +∞. -/
theorem ofBits_inf : Ideal.ofBits .f32 0x7F800000#32 = (⊤ : EReal) := by
  simp [Ideal.ofBits, Ideal.ieee]

/-- An extended real whose absolute value is below +∞ is a real number. -/
theorem isReal_of_abs_lt_inf (x : EReal)
    (h : Ideal.cmp .olt (max x (-x)) (Ideal.ofBits .f32 0x7F800000#32) = 1#1) : IsReal x := by
  rw [ofBits_inf] at h
  induction x using EReal.rec with
  | bot => simp [Ideal.cmp] at h
  | top => simp [Ideal.cmp] at h
  | coe r => exact ⟨r, rfl⟩

instance : Subsingleton (⟨0, ![]⟩ : Shape).Idx := ⟨fun a b => funext fun d => d.elim0⟩

/-- `jnp.all(|x| < inf)` being true makes every entry of `x` real. -/
theorem allReal_of_all_abs_lt_inf {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1)
    (h : Host.reduce IntOp.andi (cmpf .olt (Host.absf x) (broadcastInDim s ![] hb (constant (F := Ideal) ⟨0, ![]⟩ .f32 0x7F800000#32)))
      init hr hu ix0 = 1#1) : AllReal x := fun i =>
  isReal_of_abs_lt_inf (x i) (Host.reduce_andi_all _ init hr hu ix0 h i)

variable [Cert.Pre_finite_inputs.Facts]

/-- Under the precondition the node features and both weight matrices have only real entries. -/
theorem real_inputs (a0 : FVec Ideal Cert.Pre_finite_inputs.S50000x256 .f32) (a1 : IVec Cert.Pre_finite_inputs.S2x800000 32)
    (a2 : FVec Ideal Cert.Pre_finite_inputs.S256x128 .f32) (a3 : FVec Ideal Cert.Pre_finite_inputs.S128 .f32)
    (a4 : FVec Ideal Cert.Pre_finite_inputs.S256x128 .f32) (a5 : FVec Ideal Cert.Pre_finite_inputs.S128 .f32)
    (a6 : FVec Ideal Cert.Pre_finite_inputs.S50000x128 .f32)
    (h : Cert.Pre_finite_inputs.fn (F := Ideal) a0 a1 a2 a3 a4 a5 a6 = fun _ => 1#1) :
    AllReal a0 ∧ AllReal a2 ∧ AllReal a4 := by
  have h0 := congrFun h ix0
  unfold Cert.Pre_finite_inputs.fn Cert.Pre_finite_inputs.fn_part1 at h0
  dsimp only at h0
  obtain ⟨h5, -⟩ := IntOp.andi_eq_one.1 h0
  obtain ⟨h4, -⟩ := IntOp.andi_eq_one.1 h5
  obtain ⟨h13, h17⟩ := IntOp.andi_eq_one.1 h4
  obtain ⟨h8, -⟩ := IntOp.andi_eq_one.1 h13
  obtain ⟨h3, h7⟩ := IntOp.andi_eq_one.1 h8
  exact ⟨allReal_of_all_abs_lt_inf a0 _ _ _ _ h3, allReal_of_all_abs_lt_inf a2 _ _ _ _ h7,
    allReal_of_all_abs_lt_inf a4 _ _ _ _ h17⟩

end Cert.Finite

end
-- ==== Proof.LibAggregateProject.lean ====
/-
  Aggregating rows over a graph's edges and then applying a linear map is applying the map and then aggregating.

  For real edge weights c e, a real self-weight d, real rows xs e (the source row of edge e), a real row xn (the node's
  own row) and a real column w of the linear map,
      ∑ k ((0 + ∑ e [P e] xs e k · c e) + xn k · d) · w k
        = (0 + ∑ e [P e] (∑ k xs e k · w k) · c e) + (∑ k xn k · w k) · d,
  where P e says that edge e ends at the node.  Over the reals this is distributivity and an exchange of the two finite
  sums; on the extended reals distributivity fails at the infinities, so every quantity is required to be a real number.
-/
import proofs.«152276_j4269197492518_2_alg».proof.Proof.LibRealValued

open scoped BigOperators

namespace Cert.AggregateProject

open Cert.RealValued

/-- A finite sum of real numbers, read as an extended real, is the sum of the terms read as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A term kept or replaced by zero, read as an extended real. -/
theorem coe_ite (p : Prop) [Decidable p] (a : ℝ) : ((if p then a else 0 : ℝ) : EReal) = if p then (a : EReal) else 0 := by
  split <;> simp

/-- The law over the reals: distribute the column over each row's sum and exchange the two sums. -/
theorem aggregate_project_real {E K : ℕ} (P : Fin E → Prop) [DecidablePred P]
    (xs : Fin E → Fin K → ℝ) (xn w : Fin K → ℝ) (c : Fin E → ℝ) (d : ℝ) :
    ∑ k, ((∑ e, if P e then xs e k * c e else 0) + xn k * d) * w k
      = (∑ e, if P e then (∑ k, xs e k * w k) * c e else 0) + (∑ k, xn k * w k) * d := by
  simp only [add_mul, Finset.sum_add_distrib, Finset.sum_mul]
  congr 1
  · rw [Finset.sum_comm]
    refine Finset.sum_congr rfl fun e _ => ?_
    split
    · exact Finset.sum_congr rfl fun k _ => by ring
    · simp
  · exact Finset.sum_congr rfl fun k _ => by ring

/-- The law on the extended reals, for real data. -/
theorem aggregate_project {E K : ℕ} (P : Fin E → Prop) [DecidablePred P]
    (xs : Fin E → Fin K → EReal) (xn w : Fin K → EReal) (c : Fin E → EReal) (d : EReal)
    (hxs : ∀ e k, IsReal (xs e k)) (hxn : ∀ k, IsReal (xn k)) (hw : ∀ k, IsReal (w k))
    (hc : ∀ e, IsReal (c e)) (hd : IsReal d) :
    ∑ k, ((0 + ∑ e, if P e then xs e k * c e else 0) + xn k * d) * w k
      = (0 + ∑ e, if P e then (∑ k, xs e k * w k) * c e else 0) + (∑ k, xn k * w k) * d := by
  choose xs' hxs' using hxs
  choose xn' hxn' using hxn
  choose w' hw' using hw
  choose c' hc' using hc
  obtain ⟨d', rfl⟩ := hd
  simp only [zero_add, hxs', hxn', hw', hc', ← EReal.coe_mul, ← coe_sum, ← coe_ite, ← EReal.coe_add]
  exact congrArg _ (aggregate_project_real P xs' xn' w' c' d')

end Cert.AggregateProject
-- ==== Proof.LibScatterRows.lean ====
/-
  A float scatter-add of whole rows into a rank-2 table at a column of row numbers, read at an entry.
-/
import Idealize.ShloMosaic.PureOps.Ideal
import Idealize.ShloMosaic.Lib.ValueIdx

noncomputable section

open Idealize.ShloMosaic Idealize.ShloMosaic.ValueIdx
open scoped BigOperators

namespace Cert.LibRows

/-- The dimension numbers of a scatter of whole rows: operand `[N, C]`, scatter indices `[E, 1]` (one row number per
    update row), updates `[E, C]`; the row axis inserted, the column axis the one window axis. -/
abbrev rowsScatter (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Coordinates
variable {N C E w : Nat} (wf : ScatterDims.WF ⟨2, ![N, C]⟩ ⟨2, ![E, 1]⟩ ⟨2, ![E, C]⟩ [1] [0] [0] 1)
  (idx : IVec ⟨2, ![E, 1]⟩ w) (e : Fin E) (c' : Fin C)

/-- On the row axis the window of update entry `(e, c')` starts at the row number of update row `e`, read signed. -/
theorem rowsScatter_start_row :
    (rowsScatter N C E wf).start (ix2 e c') idx 0 = (idx (ix2 e (0 : Fin 1))).toInt := by
  unfold ScatterDims.start
  rw [dif_pos (show (0 : Fin 2) ∈ (rowsScatter N C E wf).scatterDimsToOperandDims from List.mem_singleton.mpr rfl)]
  have hsi : (rowsScatter N C E wf).siIdx (ix2 e c') ⟨List.idxOf (0 : Fin 2) (rowsScatter N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at `0`. -/
theorem rowsScatter_start_col : (rowsScatter N C E wf).start (ix2 e c') idx 1 = 0 := by
  unfold ScatterDims.start
  rw [dif_neg (show ¬ ((1 : Fin 2) ∈ ([0] : List (Fin 2))) from by decide)]

/-- On the row axis the window coordinate is `0`. -/
theorem rowsScatter_window_row : (rowsScatter N C E wf).window (ix2 e c') 0 = 0 := by
  unfold ScatterDims.window
  rw [dif_neg (show ¬ ((0 : Fin 2) ∈ (rowsScatter N C E wf).sKept) from
    (show ¬ ((0 : Fin 2) ∈ (List.finRange 2).filter (fun a => a ∉ ([0] : List (Fin 2)))) from by decide))]

/-- On the column axis the window coordinate is the update entry's column. -/
theorem rowsScatter_window_col : (rowsScatter N C E wf).window (ix2 e c') 1 = c'.val := by
  unfold ScatterDims.window
  rw [dif_pos (show (1 : Fin 2) ∈ (rowsScatter N C E wf).sKept from
    (show (1 : Fin 2) ∈ (List.finRange 2).filter (fun a => a ∉ ([0] : List (Fin 2))) from by decide))]
  rfl

end Coordinates

/-- Update entry `(e, c')` lands at operand entry `(n, c)` exactly when the row number of update row `e`, read signed
    and not clamped, is `n` and the columns agree. -/
theorem rowsScatter_resultIdx_eq_some_iff {N C E w : Nat} (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (rowsScatter N C E wf).resultIdx? (ix2 e c') idx = some (ix2 n c) ↔ (idx (ix2 e (0 : Fin 1))).toInt = (n.val : Int) ∧ c' = c := by
  have hs0 := rowsScatter_start_row wf idx e c'
  have hs1 := rowsScatter_start_col wf idx e c'
  have hw0 := rowsScatter_window_row wf e c'
  have hw1 := rowsScatter_window_col wf e c'
  have hn := n.isLt
  have hc := c.isLt
  have hc' := c'.isLt
  unfold ScatterDims.resultIdx?
  constructor
  · intro h
    split at h
    · rename_i hin
      have h' := Option.some.inj h
      have e0 : ((rowsScatter N C E wf).start (ix2 e c') idx 0 + ((rowsScatter N C E wf).window (ix2 e c') 0 : Nat)).toNat = n.val :=
        congrArg (fun f => (f 0).val) h'
      have e1 : ((rowsScatter N C E wf).start (ix2 e c') idx 1 + ((rowsScatter N C E wf).window (ix2 e c') 1 : Nat)).toNat = c.val :=
        congrArg (fun f => (f 1).val) h'
      have p0 := (hin 0).1
      rw [hs0, hw0] at e0 p0
      rw [hs1, hw1] at e1
      refine ⟨by omega, Fin.ext (by omega)⟩
    · exact absurd h (by simp)
  · rintro ⟨h1, rfl⟩
    have hin : ∀ a, 0 ≤ (rowsScatter N C E wf).start (ix2 e c') idx a + ((rowsScatter N C E wf).window (ix2 e c') a : Nat)
        ∧ (rowsScatter N C E wf).start (ix2 e c') idx a + ((rowsScatter N C E wf).window (ix2 e c') a : Nat)
          < ((⟨2, ![N, C]⟩ : Shape).size a : Nat) := by
      intro a
      match a with
      | ⟨0, _⟩ =>
        show 0 ≤ (rowsScatter N C E wf).start (ix2 e c') idx 0 + ((rowsScatter N C E wf).window (ix2 e c') 0 : Nat)
          ∧ (rowsScatter N C E wf).start (ix2 e c') idx 0 + ((rowsScatter N C E wf).window (ix2 e c') 0 : Nat) < (N : Int)
        rw [hs0, hw0, h1]; omega
      | ⟨1, _⟩ =>
        show 0 ≤ (rowsScatter N C E wf).start (ix2 e c') idx 1 + ((rowsScatter N C E wf).window (ix2 e c') 1 : Nat)
          ∧ (rowsScatter N C E wf).start (ix2 e c') idx 1 + ((rowsScatter N C E wf).window (ix2 e c') 1 : Nat) < (C : Int)
        rw [hs1, hw1]; omega
    rw [dif_pos hin]
    congr 1
    funext a
    refine Fin.ext ?_
    match a with
    | ⟨0, _⟩ =>
      show ((rowsScatter N C E wf).start (ix2 e c') idx 0 + ((rowsScatter N C E wf).window (ix2 e c') 0 : Nat)).toNat = n.val
      rw [hs0, hw0, h1]; omega
    | ⟨1, _⟩ =>
      show ((rowsScatter N C E wf).start (ix2 e c') idx 1 + ((rowsScatter N C E wf).window (ix2 e c') 1 : Nat)).toNat = c'.val
      rw [hs1, hw1]; omega

/-- At the ideal instance the scatter-add of whole rows read at `(n, c)` is the operand's entry plus the sum, over the
    update rows whose row number (read signed, not clamped) is `n`, of the update's entry in column `c`; an update
    row whose number is outside `[0, N)` lands nowhere. -/
theorem scatterAdd_rows_apply {N C E w : Nat} {φ : FTy} (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (c : Fin C) :
    Host.scatterAdd (F := Ideal) (rowsScatter N C E wf) x idx upd (ix2 n c)
      = x (ix2 n c) + ∑ e : Fin E, if (idx (ix2 e (0 : Fin 1))).toInt = (n.val : Int) then upd (ix2 e c) else 0 := by
  change x (ix2 n c) + _ = _
  congr 1
  rw [Finset.sum_filter, sum_idx2]
  refine Finset.sum_congr rfl fun e _ => ?_
  simp only [rowsScatter_resultIdx_eq_some_iff]
  by_cases h : (idx (ix2 e (0 : Fin 1))).toInt = (n.val : Int)
  · simp only [h, true_and, if_true]
    rw [Finset.sum_ite_eq' Finset.univ c (fun c' => upd (ix2 e c'))]
    simp
  · simp only [h, false_and, if_false]
    exact Finset.sum_const_zero

end Cert.LibRows

end
-- ==== Proof.LibGatherRows.lean ====
/-
  A gather of whole rows of a rank-2 table at a column of row numbers, read at an entry.
-/
import Idealize.ShloMosaic.PureOps.Ideal
import Idealize.ShloMosaic.Lib.ValueIdx

noncomputable section

open Idealize.ShloMosaic Idealize.ShloMosaic.ValueIdx
open scoped BigOperators

namespace Cert.LibRows

/-- The dimension numbers of a gather of whole rows: operand `[N, C]`, start indices `[E, 1]` (one row number per
    result row), result `[E, C]`; the row axis collapsed, the column axis the one offset axis. -/
abbrev rowsGather (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The gather of whole rows read at `(e, c)` is the table at column `c` of the row whose number is the start index
    of result row `e`, read signed and clamped into `[0, N − 1]`. -/
theorem gather_rows_apply {α : Type} {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsGather N C E wf) x idx (ix2 e c)
      = x (ix2 (⟨min (idx (ix2 e (0 : Fin 1))).toInt.toNat (N - 1), by omega⟩ : Fin N) c) := by
  have h0 : (rowsGather N C E wf).start (ix2 e c) idx 0 + (rowsGather N C E wf).batchCoord (ix2 e c) 0
      + (rowsGather N C E wf).offCoord (ix2 e c) 0 = min (idx (ix2 e (0 : Fin 1))).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather N C E wf).startIndexMap from List.mem_singleton.mpr rfl)]
    have hsi : (rowsGather N C E wf).siIdx (ix2 e c) ⟨List.idxOf (0 : Fin 2) (rowsGather N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : (rowsGather N C E wf).start (ix2 e c) idx 1 + (rowsGather N C E wf).batchCoord (ix2 e c) 1
      + (rowsGather N C E wf).offCoord (ix2 e c) 1 = c.val := by
    rw [GatherDims.batchCoord_eq_zero _ _ _ List.not_mem_nil]
    have hs : (rowsGather N C E wf).start (ix2 e c) idx 1 = 0 := by
      unfold GatherDims.start
      rw [dif_neg (show ¬ ((1 : Fin 2) ∈ ([0] : List (Fin 2))) from by decide)]
    rw [hs, Nat.add_zero, Nat.zero_add]
    rfl
  unfold Host.gather
  congr 1
  funext a
  refine Fin.ext ?_
  match a with
  | ⟨0, _⟩ => exact h0
  | ⟨1, _⟩ => exact h1

end Cert.LibRows

end
-- ==== Proof.LibEdgeAggregate.lean ====
/-
  The weighted sum over a graph's edges, read at an entry.

  A graph is a list of E edges; edge e carries a weight coef e, a source row (the row number in the source column,
  read signed and clamped into the table) and a destination (the number in the destination column, read signed and NOT
  clamped: an edge whose destination is outside the table lands nowhere).  The host gathers the source rows of a table
  h, scales row e by coef e (the weight made a column and stretched along the row), and adds the scaled rows into a
  constant array at the destinations.  Entry (n, c) of the result is the constant plus the sum, over the edges that end
  at n, of h(source e, c) · coef e.  The self-loop term scales row n of the table by a per-node weight made a column
  and stretched the same way.
-/
import proofs.«152276_j4269197492518_2_alg».proof.Proof.LibScatterRows
import proofs.«152276_j4269197492518_2_alg».proof.Proof.LibGatherRows
import Idealize.ShloMosaic.Lib.Pipeline.Value

noncomputable section

namespace Cert.EdgeAggregate

open Idealize.ShloMosaic Idealize.ShloMosaic.ValueIdx Cert.LibRows
open scoped BigOperators

variable {α : Type}

/-- The row an edge reads: its source number, read signed and clamped into `[0, N − 1]`. -/
def rowOf {N E w : ℕ} (hN : 0 < N) (idx : IVec ⟨2, ![E, 1]⟩ w) (e : Fin E) : Fin N :=
  ⟨min (idx (ix2 e (0 : Fin 1))).toInt.toNat (N - 1), by omega⟩

/-- A length-M vector made an M × 1 column and stretched along n columns (the host's two broadcasts): entry (p, q) is
    the vector's entry p. -/
theorem colStretch_apply {M n : ℕ} (v : (⟨1, ![M]⟩ : Shape).Idx → α)
    (h₁ : (⟨1, ![M]⟩ : Shape).BroadcastsInDim ⟨2, ![M, 1]⟩ (![0] : Fin 1 → Fin 2))
    (h₂ : (⟨2, ![M, 1]⟩ : Shape).BroadcastsInDim ⟨2, ![M, n]⟩ (![0, 1] : Fin 2 → Fin 2)) (p : Fin M) (q : Fin n) :
    broadcastInDim ⟨2, ![M, n]⟩ ![0, 1] h₂ (broadcastInDim ⟨2, ![M, 1]⟩ ![0] h₁ v) (ix2 p q) = v (ix1 p) := by
  refine (broadcastInDim_apply ![0, 1] h₂ _ (ix2 p q) (ix2 p (0 : Fin 1)) fun a => ?_).trans
    (broadcastInDim_apply ![0] h₁ v (ix2 p (0 : Fin 1)) (ix1 p) fun a => ?_)
  · match a with
    | ⟨0, _⟩ =>
      show p.val = if M = 1 then 0 else p.val
      split
      · have := p.isLt; omega
      · rfl
    | ⟨1, _⟩ => show (0 : ℕ) = if (1 : ℕ) = 1 then 0 else _; rw [if_pos rfl]
  · match a with
    | ⟨0, _⟩ =>
      show p.val = if M = 1 then 0 else p.val
      split
      · have := p.isLt; omega
      · rfl

/-- The edge sum at entry (n, c): the constant plus, over the edges that end at n, the source row's entry times the
    edge's weight. -/
theorem edgeSum_apply {N C E : ℕ} (hN : 0 < N)
    (swf : ScatterDims.WF ⟨2, ![N, C]⟩ ⟨2, ![E, 1]⟩ ⟨2, ![E, C]⟩ [1] [0] [0] 1)
    (gwf : GatherDims.WF ⟨2, ![N, C]⟩ ⟨2, ![E, 1]⟩ ⟨2, ![E, C]⟩ [1] [0] [] [0] [] 1 ![1, C])
    (hz : (⟨0, ![]⟩ : Shape).BroadcastsInDim ⟨2, ![N, C]⟩ (![] : Fin 0 → Fin 2))
    (hcol : (⟨1, ![E]⟩ : Shape).BroadcastsInDim ⟨2, ![E, 1]⟩ (![0] : Fin 1 → Fin 2))
    (hrep : (⟨2, ![E, 1]⟩ : Shape).BroadcastsInDim ⟨2, ![E, C]⟩ (![0, 1] : Fin 2 → Fin 2))
    (b : BitVec 32) (h : FVec Ideal ⟨2, ![N, C]⟩ .f32) (srcCol dstCol : IVec ⟨2, ![E, 1]⟩ 32)
    (coef : FVec Ideal ⟨1, ![E]⟩ .f32) (n : Fin N) (c : Fin C) :
    Host.scatterAdd (F := Ideal) (rowsScatter N C E swf)
        (broadcastInDim ⟨2, ![N, C]⟩ ![] hz (constant (F := Ideal) ⟨0, ![]⟩ .f32 b)) dstCol
        (mulf (Host.gather (rowsGather N C E gwf) h srcCol)
          (broadcastInDim ⟨2, ![E, C]⟩ ![0, 1] hrep (broadcastInDim ⟨2, ![E, 1]⟩ ![0] hcol coef))) (ix2 n c)
      = Ideal.ofBits .f32 b + ∑ e : Fin E, if (dstCol (ix2 e (0 : Fin 1))).toInt = (n.val : Int)
          then h (ix2 (rowOf hN srcCol e) c) * coef (ix1 e) else 0 := by
  rw [scatterAdd_rows_apply]
  congr 1
  refine Finset.sum_congr rfl fun e _ => ?_
  split
  · rw [mulf_apply, gather_rows_apply hN, colStretch_apply]
    rfl
  · rfl

/-- The self-loop term at entry (n, c): the table's entry times the node's weight. -/
theorem selfScale_apply {N C : ℕ} (h : FVec Ideal ⟨2, ![N, C]⟩ .f32) (d : FVec Ideal ⟨1, ![N]⟩ .f32)
    (h₁ : (⟨1, ![N]⟩ : Shape).BroadcastsInDim ⟨2, ![N, 1]⟩ (![0] : Fin 1 → Fin 2))
    (h₂ : (⟨2, ![N, 1]⟩ : Shape).BroadcastsInDim ⟨2, ![N, C]⟩ (![0, 1] : Fin 2 → Fin 2)) (n : Fin N) (c : Fin C) :
    mulf h (broadcastInDim ⟨2, ![N, C]⟩ ![0, 1] h₂ (broadcastInDim ⟨2, ![N, 1]⟩ ![0] h₁ d)) (ix2 n c)
      = h (ix2 n c) * d (ix1 n) := by
  rw [mulf_apply, colStretch_apply]

end Cert.EdgeAggregate

end
-- ==== Proof.Layer.lean ====
/-
  One graph-convolution layer, entry by entry, in its two arrangements.

  With s(e) the source row of edge e, c(e) its weight, d(n) a node's self-loop weight and the sums over the edges that
  end at node n:
    * aggregate first:  a(n, k) = (0 + ∑ₑ x(s e, k) · c e) + x(n, k) · d n,   then project:  ∑ₖ a(n, k) · W(k, q);
    * project first:     h(n, q) = ∑ₖ x(n, k) · W(k, q),   then aggregate:  (0 + ∑ₑ h(s e, q) · c e) + h(n, q) · d n.
  For real x, W, c and d the two are equal: the normalised adjacency is a linear map on the rows and commutes with the
  right multiplication by W.  The output adds a bias to each of two such layers (mean and log-deviation), clamps the
  second from above, and samples:  z = μ + ε · exp(min(ℓ, 10)).
-/
import proofs.«152276_j4269197492518_2_alg».proof.Proof.LibAggregateProject
import proofs.«152276_j4269197492518_2_alg».proof.Proof.LibEdgeAggregate
import proofs.«152276_j4269197492518_2_alg».proof.Proof.LibRealArrays

noncomputable section

namespace Cert.Layer

open Idealize.ShloMosaic Idealize.ShloMosaic.ValueIdx Cert.RealValued Cert.RealArrays Cert.EdgeAggregate
open scoped BigOperators

variable {N K C E : ℕ} (hN : 0 < N)

/-- Aggregate first: the normalised neighbourhood sum of the input rows, at entry (n, k). -/
def aggAt (x : (⟨2, ![N, K]⟩ : Shape).Idx → EReal) (srcCol dstCol : IVec ⟨2, ![E, 1]⟩ 32)
    (coef : (⟨1, ![E]⟩ : Shape).Idx → EReal) (d : (⟨1, ![N]⟩ : Shape).Idx → EReal) (n : Fin N) (k : Fin K) : EReal :=
  (0 + ∑ e : Fin E, if (dstCol (ix2 e (0 : Fin 1))).toInt = (n.val : Int)
    then x (ix2 (rowOf hN srcCol e) k) * coef (ix1 e) else 0) + x (ix2 n k) * d (ix1 n)

/-- Project first: the normalised neighbourhood sum of the projected rows, at entry (n, q). -/
def convAt (x : (⟨2, ![N, K]⟩ : Shape).Idx → EReal) (W : (⟨2, ![K, C]⟩ : Shape).Idx → EReal)
    (srcCol dstCol : IVec ⟨2, ![E, 1]⟩ 32) (coef : (⟨1, ![E]⟩ : Shape).Idx → EReal)
    (d : (⟨1, ![N]⟩ : Shape).Idx → EReal) (n : Fin N) (q : Fin C) : EReal :=
  (0 + ∑ e : Fin E, if (dstCol (ix2 e (0 : Fin 1))).toInt = (n.val : Int)
    then (∑ k : Fin K, x (ix2 (rowOf hN srcCol e) k) * W (ix2 k q)) * coef (ix1 e) else 0)
    + (∑ k : Fin K, x (ix2 n k) * W (ix2 k q)) * d (ix1 n)

/-- Projecting the aggregated rows is aggregating the projected rows, for real data. -/
theorem project_aggAt (x : (⟨2, ![N, K]⟩ : Shape).Idx → EReal) (W : (⟨2, ![K, C]⟩ : Shape).Idx → EReal)
    (srcCol dstCol : IVec ⟨2, ![E, 1]⟩ 32) (coef : (⟨1, ![E]⟩ : Shape).Idx → EReal)
    (d : (⟨1, ![N]⟩ : Shape).Idx → EReal) (hx : AllReal x) (hW : AllReal W) (hc : AllReal coef) (hd : AllReal d)
    (n : Fin N) (q : Fin C) :
    ∑ k : Fin K, aggAt hN x srcCol dstCol coef d n k * W (ix2 k q) = convAt hN x W srcCol dstCol coef d n q :=
  Cert.AggregateProject.aggregate_project (fun e => (dstCol (ix2 e (0 : Fin 1))).toInt = (n.val : Int))
    (fun e k => x (ix2 (rowOf hN srcCol e) k)) (fun k => x (ix2 n k)) (fun k => W (ix2 k q)) (fun e => coef (ix1 e))
    (d (ix1 n)) (fun _ _ => hx _) (fun _ => hx _) (fun _ => hW _) (fun _ => hc _) (hd _)

/-- The sample: mean plus noise times the exponential of the log-deviation clamped at ten. -/
def sample (mu ls eps : EReal) : EReal := mu + eps * Ideal.exp (min ls (Ideal.ofBits .f32 0x41200000#32))

end Cert.Layer

end
-- ==== Proof.LibDegreeScale.lean ====
/-
  The symmetric normalisation of a graph is made of real numbers.

  A node's degree is one plus the number of edges that end at it: a scatter-add of ones into zeros, plus one.  It is a
  real number and at least one, so its inverse square root is a positive real number — never the +∞ that the inverse
  square root of zero would be, nor the junk value of a negative argument.  This holds for every index list.
-/
import proofs.«152276_j4269197492518_2_alg».proof.Proof.LibRealArrays
import Idealize.ShloMosaic.Lib.IdealHost

noncomputable section

namespace Cert.DegreeScale

open Idealize.ShloMosaic Idealize.ShloMosaic.ValueIdx Cert.RealValued Cert.RealArrays
open scoped BigOperators

/-- The inverse square root of a real number that is at least one is a real number. -/
theorem isReal_rsqrt_one_add (r : ℝ) (hr : 0 ≤ r) : IsReal (Ideal.rsqrt (((r + 1 : ℝ)) : EReal)) := by
  rw [Ideal.rsqrt_coe, if_neg (by linarith), if_neg (by linarith)]
  exact ⟨_, rfl⟩

/-- One plus a scatter-add of ones into zeros, inverted and square-rooted: all entries real. -/
theorem allReal_rsqrt_count {s si su : Shape} {w : Nat} (d : ScatterDims s si su) (idx : IVec si w)
    (z one : s.Idx → EReal) (u : su.Idx → EReal) (hz : ∀ i, z i = 0) (hu : ∀ j, u j = 1) (ho : ∀ i, one i = 1) :
    AllReal (Host.rsqrt (F := Ideal) (φ := .f32) (addf (Host.scatterAdd (F := Ideal) (φ := .f32) d z idx u) one)) := fun i => by
  show IsReal (Ideal.rsqrt ((z i + ∑ j ∈ Finset.univ.filter (fun j => d.resultIdx? j idx = some i), u j) + one i))
  rw [hz, ho]
  have hs : IsReal (∑ j ∈ Finset.univ.filter (fun j => d.resultIdx? j idx = some i), u j) :=
    IsReal.sum _ _ fun j _ => by rw [hu]; exact IsReal.one
  have hn : 0 ≤ ∑ j ∈ Finset.univ.filter (fun j => d.resultIdx? j idx = some i), u j :=
    Finset.sum_nonneg fun j _ => by rw [hu]; exact zero_le_one
  obtain ⟨r, hr⟩ := hs
  rw [hr] at hn ⊢
  have hr0 : 0 ≤ r := EReal.coe_nonneg.mp hn
  have e : (0 : EReal) + (r : EReal) + 1 = ((r + 1 : ℝ) : EReal) := by
    rw [zero_add, EReal.coe_add, EReal.coe_one]
  rw [e]
  exact isReal_rsqrt_one_add r hr0

/-- A rank-0 constant broadcast anywhere reads the constant. -/
theorem bcast_const_apply {t : Shape} (h : (⟨0, ![]⟩ : Shape).BroadcastsInDim t (![] : Fin 0 → Fin t.rank)) (b : BitVec 32)
    (i : t.Idx) : broadcastInDim t ![] h (constant (F := Ideal) ⟨0, ![]⟩ .f32 b) i = Ideal.ofBits .f32 b := rfl

end Cert.DegreeScale

end
-- ==== Proof.LibMatmul.lean ====
/-
  A matrix product read at an entry.

  At the exact instance a matrix-unit product into a zero accumulator is, entry by entry, the textbook contraction:
  for an M x K left operand and a K x N right operand, entry (p, q) is the sum over k of lhs(p, k) * rhs(k, q)
  (`matmul_zero_plain_apply`); when the right operand is given as N x K and contracted along its second axis
  (a product with the transpose), entry (p, q) is the sum over k of lhs(p, k) * rhs(q, k) (`matmul_zero_nt_apply`).
  The dimension records are the ones with exactly those contracting and free axes and no batch axis.
-/
import Idealize.ShloMosaic.PureOps.Ideal.Laws
import Idealize.ShloMosaic.Lib.ValueIdx

noncomputable section

namespace Cert.MatmulAt

open Idealize.ShloMosaic Idealize.ShloMosaic.ValueIdx

/-- Rows times columns: contract the left operand's second axis with the right operand's first. -/
abbrev plainDims {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- Rows times rows: contract the second axis of both operands. -/
abbrev ntDims {M K N : ℕ} (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

theorem matmul_zero_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    matmul (plainDims wf) prec lhs rhs (constant (F := Ideal) ⟨2, ![M, N]⟩ .f32 0x00000000#32) (ix2 p q)
      = ∑ k : Fin K, lhs (ix2 p k) * rhs (ix2 k q) := by
  simp only [matmul]
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, _⟩ =>
        unfold DotDims.rhsIdx
        split
        · rename_i hb; exact absurd hb List.not_mem_nil
        · split
          · rfl
          · rename_i hn; exact absurd (List.mem_singleton_self _) hn)
  rw [el, er]

theorem matmul_zero_nt_apply {M K N : ℕ} {φ₁ φ₂ : FTy}
    (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    matmul (ntDims wf) prec lhs rhs (constant (F := Ideal) ⟨2, ![M, N]⟩ .f32 0x00000000#32) (ix2 p q)
      = ∑ k : Fin K, lhs (ix2 p k) * rhs (ix2 q k) := by
  simp only [matmul]
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((ntDims wf).lhsIdx_val_of_single rfl _ _).trans hk)
  have er : (ntDims wf).rhsIdx (ix2 p q) ((contrEquiv1 (ntDims wf) K rfl rfl).symm k) = ix2 q k :=
    funext fun a => Fin.ext (by
      match a with
      | ⟨0, _⟩ =>
        unfold DotDims.rhsIdx
        split
        · rename_i hb; exact absurd hb List.not_mem_nil
        · split
          · rfl
          · rename_i hn; exact absurd (List.mem_singleton_self _) hn
      | ⟨1, _⟩ => exact ((ntDims wf).rhsIdx_val_of_single rfl _ _).trans hk)
  rw [el, er]

end Cert.MatmulAt

end
-- ==== Proof.LibRank2.lean ====
/-
  Rank-two arrays read at an entry (p, q), for any sizes.

  * the host's matrix product of an M x K by a K x N matrix, at the exact instance, is at entry (p, q) the sum over k
    of lhs(p, k) * rhs(k, q) (`dotGeneral_plain_apply`);
  * two matrices laid side by side (joined along the columns) read at (p, q): the left one at (p, q) when q is one of
    its columns, the right one at (p, q - N₁) otherwise (`concat_cols_left`, `concat_cols_right`); stacked one above the
    other (joined along the rows): the upper one at (p, q), the lower one at (p - M₁, q) (`concat_rows_left`,
    `concat_rows_right`);
  * a length-n vector made a 1 x n row and repeated down M rows reads at (p, q) as the vector's entry q, in the host's
    two-step form (`rowBias_apply`) and in the vector unit's cast-then-broadcast form (`rowBias_vec_apply`);
  * the entrywise sum of two length-n vectors reshaped to a 1 x n row reads at (0, q) as the sum of the two entries q
    (`biasSumRow_apply`).
-/
import Idealize.ShloMosaic.Lib.KernelVsHost
import Idealize.ShloMosaic.Lib.ValueLayout
import proofs.«152276_j4269197492518_2_alg».proof.Proof.LibMatmul

noncomputable section

namespace Cert.Rank2

open Idealize.ShloMosaic Idealize.ShloMosaic.ValueIdx

variable {α : Type}

/-- The host's rows-times-columns product at entry (p, q): the plain contraction over k. -/
theorem dotGeneral_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    Host.dotGeneral (Cert.MatmulAt.plainDims wf) prec lhs rhs (ix2 p q) = ∑ k : Fin K, lhs (ix2 p k) * rhs (ix2 k q) := by
  rw [← matmul_zero_eq_dotGeneral]
  exact Cert.MatmulAt.matmul_zero_plain_apply wf prec lhs rhs p q

/-- Side by side, a column of the left matrix. -/
theorem concat_cols_left {M N₁ N₂ N : ℕ} (x₁ : (⟨2, ![M, N₁]⟩ : Shape).Idx → α) (x₂ : (⟨2, ![M, N₂]⟩ : Shape).Idx → α)
    (h : Shape.Concatenates [(⟨2, ![M, N₁]⟩ : Shape), ⟨2, ![M, N₂]⟩] ⟨2, ![M, N]⟩ 1)
    (p : Fin M) (q : Fin N) (q₁ : Fin N₁) (hq : q₁.val = q.val) :
    concatenate ⟨2, ![M, N]⟩ 1 [⟨⟨2, ![M, N₁]⟩, x₁⟩, ⟨⟨2, ![M, N₂]⟩, x₂⟩] h (ix2 p q) = x₁ (ix2 p q₁) :=
  concatenate_pair_apply_left 1 x₁ x₂ h (ix2 p q) rfl (ix2 p q₁) fun b => match b with
    | ⟨0, _⟩ => rfl
    | ⟨1, _⟩ => hq

/-- Side by side, a column of the right matrix. -/
theorem concat_cols_right {M N₁ N₂ N : ℕ} (x₁ : (⟨2, ![M, N₁]⟩ : Shape).Idx → α) (x₂ : (⟨2, ![M, N₂]⟩ : Shape).Idx → α)
    (h : Shape.Concatenates [(⟨2, ![M, N₁]⟩ : Shape), ⟨2, ![M, N₂]⟩] ⟨2, ![M, N]⟩ 1)
    (p : Fin M) (q : Fin N) (q₂ : Fin N₂) (hq : q₂.val + N₁ = q.val) :
    concatenate ⟨2, ![M, N]⟩ 1 [⟨⟨2, ![M, N₁]⟩, x₁⟩, ⟨⟨2, ![M, N₂]⟩, x₂⟩] h (ix2 p q) = x₂ (ix2 p q₂) :=
  concatenate_pair_apply_right 1 x₁ x₂ h (ix2 p q) rfl rfl (ix2 p q₂)
    (fun b hb => match b, hb with
      | ⟨0, _⟩, _ => rfl
      | ⟨1, _⟩, hb => (hb (Fin.ext rfl)).elim)
    hq

/-- One above the other, a row of the upper matrix. -/
theorem concat_rows_left {M₁ M₂ M N : ℕ} (x₁ : (⟨2, ![M₁, N]⟩ : Shape).Idx → α) (x₂ : (⟨2, ![M₂, N]⟩ : Shape).Idx → α)
    (h : Shape.Concatenates [(⟨2, ![M₁, N]⟩ : Shape), ⟨2, ![M₂, N]⟩] ⟨2, ![M, N]⟩ 0)
    (p : Fin M) (q : Fin N) (p₁ : Fin M₁) (hp : p₁.val = p.val) :
    concatenate ⟨2, ![M, N]⟩ 0 [⟨⟨2, ![M₁, N]⟩, x₁⟩, ⟨⟨2, ![M₂, N]⟩, x₂⟩] h (ix2 p q) = x₁ (ix2 p₁ q) :=
  concatenate_pair_apply_left 0 x₁ x₂ h (ix2 p q) rfl (ix2 p₁ q) fun b => match b with
    | ⟨0, _⟩ => hp
    | ⟨1, _⟩ => rfl

/-- One above the other, a row of the lower matrix. -/
theorem concat_rows_right {M₁ M₂ M N : ℕ} (x₁ : (⟨2, ![M₁, N]⟩ : Shape).Idx → α) (x₂ : (⟨2, ![M₂, N]⟩ : Shape).Idx → α)
    (h : Shape.Concatenates [(⟨2, ![M₁, N]⟩ : Shape), ⟨2, ![M₂, N]⟩] ⟨2, ![M, N]⟩ 0)
    (p : Fin M) (q : Fin N) (p₂ : Fin M₂) (hp : p₂.val + M₁ = p.val) :
    concatenate ⟨2, ![M, N]⟩ 0 [⟨⟨2, ![M₁, N]⟩, x₁⟩, ⟨⟨2, ![M₂, N]⟩, x₂⟩] h (ix2 p q) = x₂ (ix2 p₂ q) :=
  concatenate_pair_apply_right 0 x₁ x₂ h (ix2 p q) rfl rfl (ix2 p₂ q)
    (fun b hb => match b, hb with
      | ⟨0, _⟩, hb => (hb (Fin.ext rfl)).elim
      | ⟨1, _⟩, _ => rfl)
    hp

/-- A vector as a 1 x n row, repeated down M rows (the host's two broadcasts): entry (p, q) is the vector's entry q. -/
theorem rowBias_apply {M n : ℕ} (b : (⟨1, ![n]⟩ : Shape).Idx → α)
    (h₁ : (⟨1, ![n]⟩ : Shape).BroadcastsInDim ⟨2, ![1, n]⟩ (![1] : Fin 1 → Fin 2))
    (h₂ : (⟨2, ![1, n]⟩ : Shape).BroadcastsInDim ⟨2, ![M, n]⟩ (![0, 1] : Fin 2 → Fin 2)) (p : Fin M) (q : Fin n) :
    broadcastInDim ⟨2, ![M, n]⟩ ![0, 1] h₂ (broadcastInDim ⟨2, ![1, n]⟩ ![1] h₁ b) (ix2 p q) = b (ix1 q) := by
  refine (broadcastInDim_apply ![0, 1] h₂ _ (ix2 p q) (ix2 (0 : Fin 1) q) fun a => ?_).trans
    (broadcastInDim_apply ![1] h₁ b (ix2 (0 : Fin 1) q) (ix1 q) fun a => ?_)
  · match a with
    | ⟨0, _⟩ => show (0 : ℕ) = if (1 : ℕ) = 1 then 0 else _; rw [if_pos rfl]
    | ⟨1, _⟩ =>
      show q.val = if n = 1 then 0 else q.val
      split
      · have := q.isLt; omega
      · rfl
  · match a with
    | ⟨0, _⟩ =>
      show q.val = if n = 1 then 0 else q.val
      split
      · have := q.isLt; omega
      · rfl

/-- A 1 x n row cast to its own shape and broadcast down M rows (the vector unit's form): entry (p, q) is the row's
    entry (0, q). -/
theorem rowBias_vec_apply {M n : ℕ} (v : (⟨2, ![1, n]⟩ : Shape).Idx → α)
    (hc : (⟨2, ![1, n]⟩ : Shape).ShapeCasts ⟨2, ![1, n]⟩) (hb : (⟨2, ![1, n]⟩ : Shape).Broadcasts ⟨2, ![M, n]⟩)
    (p : Fin M) (q : Fin n) :
    broadcastTo ⟨2, ![M, n]⟩ (shapeCast ⟨2, ![1, n]⟩ v hc) hb (ix2 p q) = v (ix2 (0 : Fin 1) q) := by
  rw [shapeCast_self]
  refine broadcastTo_apply v hb (ix2 p q) (ix2 (0 : Fin 1) q) fun a => ?_
  match a with
  | ⟨0, _⟩ => show (0 : ℕ) = if (1 : ℕ) = 1 then 0 else _; rw [if_pos rfl]
  | ⟨1, _⟩ =>
    show q.val = if n = 1 then 0 else q.val
    split
    · have := q.isLt; omega
    · rfl

/-- The entrywise sum of two vectors, reshaped to a 1 x n row, at (0, q). -/
theorem biasSumRow_apply {n : ℕ} {φ : FTy} (b₁ b₂ : FVec Ideal ⟨1, ![n]⟩ φ)
    (h : (⟨1, ![n]⟩ : Shape).ShapeCasts ⟨2, ![1, n]⟩) (u : Fin 1) (q : Fin n) :
    shapeCast ⟨2, ![1, n]⟩ (addf b₁ b₂) h (ix2 u q) = b₁ (ix1 q) + b₂ (ix1 q) :=
  shapeCast_a_1a_apply (addf b₁ b₂) h u q

end Cert.Rank2

end
-- ==== Proof.RefAt.lean ====
/-
  The reference, entry by entry.

  The reference applies the same graph convolution twice, to the mean's weights and bias and to the log-deviation's.
  Each is "project first": h = x·W, the edge sum of h's source rows scaled by the edge weights and added at the
  destinations, plus h scaled by the self-loop weights, plus the bias.  Here each convolution is read at an entry as the
  closed formula of Layer.lean, over the reference's own edge columns, edge weights and self-loop weights, and those
  weights are shown to be real numbers: products of inverse square roots of degrees that are at least one.
-/
import proofs.«152276_j4269197492518_2_alg».proof.Proof.Gen.ReferenceIdeal.Read
import proofs.«152276_j4269197492518_2_alg».proof.Proof.Layer
import proofs.«152276_j4269197492518_2_alg».proof.Proof.LibDegreeScale
import proofs.«152276_j4269197492518_2_alg».proof.Proof.LibRank2

noncomputable section

namespace Cert.RefAt

open Idealize.ShloMosaic Idealize.ShloMosaic.ValueIdx Cert.ReferenceIdeal Cert.ReferenceIdeal.Read
open Cert.Layer Cert.EdgeAggregate Cert.RealValued Cert.RealArrays Cert.DegreeScale
open scoped BigOperators

theorem nodes_pos : 0 < 50000 := by decide

/-- The inverse square roots of the degrees are real numbers. -/
theorem allReal_dinv (x1 : IVec S2x800000 32) : AllReal (val_main_v11 (F := Ideal) x1) := by
  unfold val_main_v11 val_main_v10 val_main_v8
  exact allReal_rsqrt_count _ _ _ _ _ (fun _ => Ideal.ofBits_zero_f32) (fun _ => Ideal.ofBits_one_f32) (fun _ => Ideal.ofBits_one_f32)

/-- The edge weights are real numbers. -/
theorem allReal_coef (x1 : IVec S2x800000 32) : AllReal (val_main_v26 (F := Ideal) x1) := by
  unfold val_main_v26 val_main_v18 val_main_v25
  exact allReal_mulf _ _ (allReal_gather _ _ _ (allReal_dinv x1)) (allReal_gather _ _ _ (allReal_dinv x1))

/-- The self-loop weights are real numbers. -/
theorem allReal_self (x1 : IVec S2x800000 32) : AllReal (val_main_v40 (F := Ideal) x1) := by
  unfold val_main_v40
  exact allReal_mulf _ _ (allReal_dinv x1) (allReal_dinv x1)

/-- The projection x·W at an entry. -/
theorem project_apply (x0 : FVec Ideal S50000x256 .f32) (W : FVec Ideal S256x128 .f32) (p : Fin 50000) (q : Fin 128) :
    val_main_v4 (F := Ideal) x0 W (ix2 p q) = ∑ k : Fin 256, x0 (ix2 p k) * W (ix2 k q) := by
  rw [val_main_v4_apply]
  refine Finset.sum_congr rfl fun k _ => ?_
  congr 2 <;> (funext a; match a with | ⟨0, _⟩ => rfl | ⟨1, _⟩ => rfl)

/-- The edge sum of the projected rows at entry (n, q). -/
theorem edge_apply (x0 : FVec Ideal S50000x256 .f32) (x1 : IVec S2x800000 32) (W : FVec Ideal S256x128 .f32)
    (n : Fin 50000) (q : Fin 128) :
    (val_main_v39 (F := Ideal) x0 x1 W (ix2 n q) : EReal)
      = 0 + ∑ e : Fin 800000, if (val_main_v38 (F := Ideal) x1 (ix2 e (0 : Fin 1))).toInt = (n.val : Int)
          then (∑ k : Fin 256, x0 (ix2 (rowOf nodes_pos (val_main_v32 (F := Ideal) x1) e) k) * W (ix2 k q)) * val_main_v26 (F := Ideal) x1 (ix1 e) else 0 := by
  have key := edgeSum_apply (N := 50000) (C := 128) (E := 800000) nodes_pos Facts₀.scatter_S50000x128_S800000x1_S800000x128_1_0_0_1_wf
    Facts₀.gather_S50000x128_S800000x1_S800000x128_1_0_n_n_0_1_1128_wf Facts₀.bcast_S_S50000x128 Facts₀.bcast_S800000_S800000x1_0
    Facts₀.bcast_S800000x1_S800000x128_0_1 0x00000000#32 (val_main_v4 (F := Ideal) x0 W) (val_main_v32 (F := Ideal) x1) (val_main_v38 (F := Ideal) x1)
    (val_main_v26 (F := Ideal) x1) n q
  rw [Ideal.ofBits_zero_f32] at key
  simp only [project_apply] at key
  exact key

/-- The self-loop term of the projected rows at entry (n, q). -/
theorem self_apply (x0 : FVec Ideal S50000x256 .f32) (x1 : IVec S2x800000 32) (W : FVec Ideal S256x128 .f32)
    (n : Fin 50000) (q : Fin 128) :
    (val_main_v43 (F := Ideal) x0 x1 W (ix2 n q) : EReal)
      = (∑ k : Fin 256, x0 (ix2 n k) * W (ix2 k q)) * val_main_v40 (F := Ideal) x1 (ix1 n) := by
  unfold val_main_v43 val_main_v42 val_main_v41
  refine (selfScale_apply (val_main_v4 (F := Ideal) x0 W) (val_main_v40 (F := Ideal) x1) _ _ n q).trans ?_
  rw [project_apply]

/-- The bias, made a row and repeated down the nodes, at entry (n, q). -/
theorem bias_apply (b : FVec Ideal S128 .f32) (n : Fin 50000) (q : Fin 128) :
    (val_main_v46 (F := Ideal) b (ix2 n q) : EReal) = b (ix1 q) := by
  unfold val_main_v46 val_main_v45
  exact Cert.Rank2.rowBias_apply b _ _ n q

/-- One convolution of the reference at entry (n, q): the project-first formula plus the bias. -/
theorem conv_apply (x0 : FVec Ideal S50000x256 .f32) (x1 : IVec S2x800000 32) (W : FVec Ideal S256x128 .f32)
    (b : FVec Ideal S128 .f32) (n : Fin 50000) (q : Fin 128) :
    (val_main_v47 (F := Ideal) x0 x1 W b (ix2 n q) : EReal)
      = convAt nodes_pos x0 W (val_main_v32 (F := Ideal) x1) (val_main_v38 (F := Ideal) x1) (val_main_v26 (F := Ideal) x1)
          (val_main_v40 (F := Ideal) x1) n q + b (ix1 q) := by
  rw [val_main_v47_apply, val_main_v44_apply, edge_apply, self_apply, bias_apply]
  simp only [Ideal.addf_def, convAt]

/-- The log-deviation's convolution is the same line of operations as the mean's, on the other weights and bias. -/
theorem second_conv (x0 : FVec Ideal S50000x256 .f32) (x1 : IVec S2x800000 32) (W : FVec Ideal S256x128 .f32)
    (b : FVec Ideal S128 .f32) : val_main_v95 (F := Ideal) x0 x1 W b = val_main_v47 (F := Ideal) x0 x1 W b := rfl

/-- The reference's result at entry (n, q). -/
theorem result_apply (x0 : FVec Ideal S50000x256 .f32) (x1 : IVec S2x800000 32) (x2 : FVec Ideal S256x128 .f32)
    (x3 : FVec Ideal S128 .f32) (x4 : FVec Ideal S256x128 .f32) (x5 : FVec Ideal S128 .f32)
    (x6 : FVec Ideal S50000x128 .f32) (n : Fin 50000) (q : Fin 128) :
    (val_main_v100 (F := Ideal) x0 x1 x2 x3 x4 x5 x6 (ix2 n q) : EReal)
      = sample
          (convAt nodes_pos x0 x2 (val_main_v32 (F := Ideal) x1) (val_main_v38 (F := Ideal) x1) (val_main_v26 (F := Ideal) x1)
            (val_main_v40 (F := Ideal) x1) n q + x3 (ix1 q))
          (convAt nodes_pos x0 x4 (val_main_v32 (F := Ideal) x1) (val_main_v38 (F := Ideal) x1) (val_main_v26 (F := Ideal) x1)
            (val_main_v40 (F := Ideal) x1) n q + x5 (ix1 q))
          (x6 (ix2 n q)) := by
  rw [val_main_v100_apply, val_main_v99_apply, val_main_v98_apply, val_main_v97_apply, val_main_v96_apply,
    val_main_cst_18_apply, second_conv, conv_apply, conv_apply]
  simp only [Ideal.addf_def, Ideal.mulf_def, Ideal.hostUnary_exp_def, Ideal.minimumf_def, Ideal.ofBits_def, sample]

end Cert.RefAt

end
-- ==== Proof.KernelHost.lean ====
/-
  What the kernel's region finds in its operand arrays.

  Before the region the host builds three arrays.  The first is "aggregate first": the edge sum of the input's source
  rows scaled by the edge weights, plus the input scaled by the self-loop weights — over the same edge columns, edge
  weights and self-loop weights as the reference computes (the two programs apply the same line of operations to the
  edge list).  The second lays the two weight matrices side by side, the third joins the two biases end to end and
  views the result as one row.  Each is read here at an entry.
-/
import proofs.«152276_j4269197492518_2_alg».proof.Proof.Gen.KernelIdeal.Frame
import proofs.«152276_j4269197492518_2_alg».proof.Proof.Gen.ReferenceIdeal.Read
import proofs.«152276_j4269197492518_2_alg».proof.Proof.Layer
import proofs.«152276_j4269197492518_2_alg».proof.Proof.RefAt
import proofs.«152276_j4269197492518_2_alg».proof.Proof.LibRank2
import Idealize.ShloMosaic.Lib.StableHlo.Run
import Idealize.ShloMosaic.Lib.ValueLayout

noncomputable section

namespace Cert.KernelHost

open Idealize.ShloMosaic Idealize.ShloMosaic.ValueIdx Idealize.ShloMosaic.TcCoe Idealize.SL.Sem
open Cert.KernelIdeal Cert.KernelIdeal.Gen
open Cert.Layer Cert.EdgeAggregate
open Cert.RefAt (nodes_pos)
open scoped BigOperators

/-- The edge sum of the input's source rows, as the host computes it, over the reference's names for the edge columns
    and the edge weights. -/
def aggEdge (x0 : FVec Ideal S50000x256 .f32) (x1 : IVec S2x800000 32) : FVec Ideal S50000x256 .f32 :=
  Host.scatterAdd scatter_S50000x256_S800000x1_S800000x256_1_0_0_1
    (broadcastInDim S50000x256 ![] bcast_S_S50000x256 (constant (F := Ideal) S_ .f32 0x00000000#32))
    (Cert.ReferenceIdeal.Read.val_main_v38 (F := Ideal) x1)
    (mulf (Host.gather gather_S50000x256_S800000x1_S800000x256_1_0_n_n_0_1_1256 x0 (Cert.ReferenceIdeal.Read.val_main_v32 (F := Ideal) x1))
      (broadcastInDim S800000x256 ![0, 1] bcast_S800000x1_S800000x256_0_1
        (broadcastInDim S800000x1 ![0] bcast_S800000_S800000x1_0 (Cert.ReferenceIdeal.Read.val_main_v26 (F := Ideal) x1))))

/-- The input scaled by the self-loop weights, over the reference's name for them. -/
def aggSelf (x0 : FVec Ideal S50000x256 .f32) (x1 : IVec S2x800000 32) : FVec Ideal S50000x256 .f32 :=
  mulf x0 (broadcastInDim S50000x256 ![0, 1] bcast_S50000x1_S50000x256_0_1
    (broadcastInDim S50000x1 ![0] bcast_S50000_S50000x1_0 (Cert.ReferenceIdeal.Read.val_main_v40 (F := Ideal) x1)))

/-- Aggregate first, as the host computes it: the edge sum plus the self-loop term. -/
def aggX (x0 : FVec Ideal S50000x256 .f32) (x1 : IVec S2x800000 32) : FVec Ideal S50000x256 .f32 :=
  addf (aggEdge x0 x1) (aggSelf x0 x1)

/-- The edge sum at entry (n, k). -/
theorem aggEdge_apply (x0 : FVec Ideal S50000x256 .f32) (x1 : IVec S2x800000 32) (n : Fin 50000) (k : Fin 256) :
    aggEdge x0 x1 (ix2 n k)
      = 0 + ∑ e : Fin 800000, if (Cert.ReferenceIdeal.Read.val_main_v38 (F := Ideal) x1 (ix2 e (0 : Fin 1))).toInt = (n.val : Int)
          then x0 (ix2 (rowOf nodes_pos (Cert.ReferenceIdeal.Read.val_main_v32 (F := Ideal) x1) e) k)
            * Cert.ReferenceIdeal.Read.val_main_v26 (F := Ideal) x1 (ix1 e) else 0 := by
  have key := edgeSum_apply (N := 50000) (C := 256) (E := 800000) nodes_pos
    Facts₀.scatter_S50000x256_S800000x1_S800000x256_1_0_0_1_wf Facts₀.gather_S50000x256_S800000x1_S800000x256_1_0_n_n_0_1_1256_wf
    Facts₀.bcast_S_S50000x256 Facts₀.bcast_S800000_S800000x1_0 Facts₀.bcast_S800000x1_S800000x256_0_1 0x00000000#32 x0
    (Cert.ReferenceIdeal.Read.val_main_v32 (F := Ideal) x1) (Cert.ReferenceIdeal.Read.val_main_v38 (F := Ideal) x1)
    (Cert.ReferenceIdeal.Read.val_main_v26 (F := Ideal) x1) n k
  rw [Ideal.ofBits_zero_f32] at key
  exact key

/-- The self-loop term at entry (n, k). -/
theorem aggSelf_apply (x0 : FVec Ideal S50000x256 .f32) (x1 : IVec S2x800000 32) (n : Fin 50000) (k : Fin 256) :
    aggSelf x0 x1 (ix2 n k) = x0 (ix2 n k) * Cert.ReferenceIdeal.Read.val_main_v40 (F := Ideal) x1 (ix1 n) :=
  selfScale_apply x0 (Cert.ReferenceIdeal.Read.val_main_v40 (F := Ideal) x1) Facts₀.bcast_S50000_S50000x1_0
    Facts₀.bcast_S50000x1_S50000x256_0_1 n k

/-- The aggregated input at entry (n, k). -/
theorem aggX_apply (x0 : FVec Ideal S50000x256 .f32) (x1 : IVec S2x800000 32) (n : Fin 50000) (k : Fin 256) :
    aggX x0 x1 (ix2 n k) = aggAt nodes_pos x0 (Cert.ReferenceIdeal.Read.val_main_v32 (F := Ideal) x1)
      (Cert.ReferenceIdeal.Read.val_main_v38 (F := Ideal) x1) (Cert.ReferenceIdeal.Read.val_main_v26 (F := Ideal) x1)
      (Cert.ReferenceIdeal.Read.val_main_v40 (F := Ideal) x1) n k := by
  unfold aggX
  rw [addf_apply, aggEdge_apply, aggSelf_apply]
  simp only [aggAt]

/-- The two weight matrices side by side. -/
def wCat (x2 x4 : FVec Ideal S256x128 .f32) : FVec Ideal S256x256 .f32 :=
  concatenate S256x256 1 [⟨S256x128, x2⟩, ⟨S256x128, x4⟩] concatenates_S256x128_S256x128_S256x256_d1

/-- The two biases end to end, as one row. -/
def bCat (x3 x5 : FVec Ideal S128 .f32) : FVec Ideal S1x256 .f32 :=
  shapeCast _ (concatenate S256 0 [⟨S128, x3⟩, ⟨S128, x5⟩] concatenates_S128_S128_S256_d0) shapeCasts_S256_S1x256

/-- A left column of the joined weights is the mean's. -/
theorem wCat_left (x2 x4 : FVec Ideal S256x128 .f32) (k : Fin 256) (q : Fin 128) (q' : Fin 256) (hq : q'.val = q.val) :
    wCat x2 x4 (ix2 k q') = x2 (ix2 k q) :=
  Cert.Rank2.concat_cols_left x2 x4 _ k q' q hq.symm

/-- A right column of the joined weights is the log-deviation's. -/
theorem wCat_right (x2 x4 : FVec Ideal S256x128 .f32) (k : Fin 256) (q : Fin 128) (q' : Fin 256) (hq : q'.val = q.val + 128) :
    wCat x2 x4 (ix2 k q') = x4 (ix2 k q) :=
  Cert.Rank2.concat_cols_right x2 x4 _ k q' q hq.symm

/-- A left entry of the joined bias row is the mean's. -/
theorem bCat_left (x3 x5 : FVec Ideal S128 .f32) (q : Fin 128) (q' : Fin 256) (hq : q'.val = q.val) :
    bCat x3 x5 (ix2 (0 : Fin 1) q') = x3 (ix1 q) := by
  unfold bCat
  rw [shapeCast_a_1a_apply]
  exact concatenate_pair_apply_left 0 x3 x5 _ (ix1 q') rfl (ix1 q) fun b => match b with
    | ⟨0, _⟩ => hq.symm

/-- A right entry of the joined bias row is the log-deviation's. -/
theorem bCat_right (x3 x5 : FVec Ideal S128 .f32) (q : Fin 128) (q' : Fin 256) (hq : q'.val = q.val + 128) :
    bCat x3 x5 (ix2 (0 : Fin 1) q') = x5 (ix1 q) := by
  unfold bCat
  rw [shapeCast_a_1a_apply]
  exact concatenate_pair_apply_right 0 x3 x5 _ (ix1 q') rfl rfl (ix1 q)
    (fun b hb => match b, hb with
      | ⟨0, _⟩, hb => (hb (Fin.ext rfl)).elim)
    hq.symm

variable (m : (ℓ : Loc nD τ sig) → Buf (Elt Ideal) ℓ)

set_option maxRecDepth 8192 in
set_option maxHeartbeats 8000000 in
/-- The region's first operand is the aggregated input. -/
theorem V_agg (c : Dev nD) : (V m c main_v43 : S50000x256.Idx → EReal)
    = aggX (m ((c : Thread nD τ).loc main_arg0)) (m ((c : Thread nD τ).loc main_arg1)) := by
  dsimp only [Gen.V, Gen.hostOps0]
  after_results_simp <;> rfl

set_option maxRecDepth 8192 in
set_option maxHeartbeats 8000000 in
/-- The region's second operand is the joined weights. -/
theorem V_wCat (c : Dev nD) : (V m c main_v44 : S256x256.Idx → EReal)
    = wCat (m ((c : Thread nD τ).loc main_arg2)) (m ((c : Thread nD τ).loc main_arg4)) := by
  dsimp only [Gen.V, Gen.hostOps0]
  after_results_simp <;> rfl

set_option maxRecDepth 8192 in
set_option maxHeartbeats 8000000 in
/-- The region's third operand is the joined bias row. -/
theorem V_bCat (c : Dev nD) : (V m c main_v46 : S1x256.Idx → EReal)
    = bCat (m ((c : Thread nD τ).loc main_arg3)) (m ((c : Thread nD τ).loc main_arg5)) := by
  dsimp only [Gen.V, Gen.hostOps0]
  after_results_simp <;> rfl

end Cert.KernelHost

end
-- ==== Proof.KernelBlock.lean ====
/-
  The kernel's result array as one function of the arrays its region reads.

  The grid has 25 points; point t reads rows 2000·t … 2000·t + 1999 of the aggregated input and of the noise, all of the
  joined weights and of the joined bias row, and writes the same rows of the result.  In a block, entry (p, q) of the
  result is
      sample (∑ₖ a(p, k) · w(k, q) + b(0, q))  (∑ₖ a(p, k) · w(k, q + 128) + b(0, q + 128))  ε(p, q):
  the matrix product into a zero accumulator is the plain contraction (a change of float format is the identity), the
  bias row is repeated down the rows, the left half of the columns is the mean and the right half the log-deviation.
  The same formula over whole-array row numbers is the function G below; every point writes its block of G, and the
  blocks cover the array, so the array ends holding G.
-/
import proofs.«152276_j4269197492518_2_alg».proof.Proof.Gen.KernelIdeal.Value
import proofs.«152276_j4269197492518_2_alg».proof.Proof.Layer
import proofs.«152276_j4269197492518_2_alg».proof.Proof.LibMatmul
import proofs.«152276_j4269197492518_2_alg».proof.Proof.LibRank2
import Idealize.ShloMosaic.Lib.Pipeline.Value
import Idealize.ShloMosaic.Lib.ValueIdx

noncomputable section

namespace Cert.KernelBlock

open Idealize.ShloMosaic Idealize.ShloMosaic.ValueIdx Idealize.ShloMosaic.TcCoe Idealize.SL.Sem
open Idealize.ShloMosaic.Pipeline (Dat)
open Cert.KernelIdeal Cert.KernelIdeal.Gen Cert.Layer
open scoped BigOperators

/-- The mean's column q among the 256 joined columns. -/
def colL (q : Fin 128) : Fin 256 := ⟨q.val, by omega⟩
/-- The log-deviation's column q among the 256 joined columns. -/
def colR (q : Fin 128) : Fin 256 := ⟨q.val + 128, by omega⟩

/-! ## One block -/

/-- The matrix product of the body at an entry: the plain contraction of the loaded blocks. -/
theorem product_apply (x0 : FVec Ideal S2000x256 .f32) (x1 : FVec Ideal S256x256 .f32) (p : Fin 2000) (q' : Fin 256) :
    matmul dot_S2000x256_S256x256_S2000x256_1_0_0_1_n_n none
        (truncf .bf16 (shapeCast S2000x256 x0 shapeCasts_S2000x256_S2000x256) bitsLt_bf16_f32)
        (truncf .bf16 (shapeCast S256x256 x1 shapeCasts_S256x256_S256x256) bitsLt_bf16_f32)
        (constant (F := Ideal) S2000x256 .f32 0x00000000#32) (ix2 p q')
      = ∑ k : Fin 256, x0 (ix2 p k) * x1 (ix2 k q') := by
  simp only [shapeCast_self]
  have key := Cert.MatmulAt.matmul_zero_plain_apply (M := 2000) (K := 256) (N := 256)
    Facts₀.dot_S2000x256_S256x256_S2000x256_1_0_0_1_n_n_wf none
    (truncf .bf16 x0 bitsLt_bf16_f32) (truncf .bf16 x1 bitsLt_bf16_f32) p q'
  simp only [truncf_apply] at key
  exact key

/-- Splitting the biased product into its halves, clamping, exponentiating and sampling, at an entry. -/
theorem halves_apply (v : FVec Ideal S2000x256 .f32) (x3 : FVec Ideal S2000x128 .f32) (p : Fin 2000) (q : Fin 128) :
    addf (extractStridedSlice S2000x128 ![0, 0] v slices_S2000x256_o0_0_S2000x128)
        (mulf x3 (exp (minimumf (extractStridedSlice S2000x128 ![0, 128] v slices_S2000x256_o0_128_S2000x128)
          (broadcast S2000x128 (Scalar.ofBits (F := Ideal) .f32 0x41200000#32))))) (ix2 p q)
      = sample (v (ix2 p (colL q))) (v (ix2 p (colR q))) (x3 (ix2 p q)) := by
  have e0 := extractStridedSlice_apply ![0, 0] v slices_S2000x256_o0_0_S2000x128 (ix2 p q) (ix2 p (colL q)) (fun a =>
    match a with
    | ⟨0, _⟩ => by show p.val = 0 + p.val; omega
    | ⟨1, _⟩ => by show q.val = 0 + q.val; omega)
  have e1 := extractStridedSlice_apply ![0, 128] v slices_S2000x256_o0_128_S2000x128 (ix2 p q) (ix2 p (colR q)) (fun a =>
    match a with
    | ⟨0, _⟩ => by show p.val = 0 + p.val; omega
    | ⟨1, _⟩ => by show q.val + 128 = 128 + q.val; omega)
  unfold sample
  rw [← e0, ← e1]
  rfl

/-- The body's result at entry (p, q) of its block. -/
theorem pay_apply (x0 : FVec Ideal S2000x256 .f32) (x1 : FVec Ideal S256x256 .f32) (x2 : FVec Ideal S1x256 .f32)
    (x3 : FVec Ideal S2000x128 .f32) (p : Fin 2000) (q : Fin 128) :
    k0_pay1 (F := Ideal) x0 x1 x2 x3 (ix2 p q)
      = sample ((∑ k : Fin 256, x0 (ix2 p k) * x1 (ix2 k (colL q))) + x2 (ix2 (0 : Fin 1) (colL q)))
          ((∑ k : Fin 256, x0 (ix2 p k) * x1 (ix2 k (colR q))) + x2 (ix2 (0 : Fin 1) (colR q))) (x3 (ix2 p q)) := by
  have hv : ∀ q' : Fin 256,
      addf (matmul dot_S2000x256_S256x256_S2000x256_1_0_0_1_n_n none
          (truncf .bf16 (shapeCast S2000x256 x0 shapeCasts_S2000x256_S2000x256) bitsLt_bf16_f32)
          (truncf .bf16 (shapeCast S256x256 x1 shapeCasts_S256x256_S256x256) bitsLt_bf16_f32)
          (constant (F := Ideal) S2000x256 .f32 0x00000000#32))
        (broadcastTo S2000x256 (shapeCast S1x256 x2 shapeCasts_S1x256_S1x256) broadcasts_S1x256_S2000x256) (ix2 p q')
      = (∑ k : Fin 256, x0 (ix2 p k) * x1 (ix2 k q')) + x2 (ix2 (0 : Fin 1) q') := fun q' => by
    rw [addf_apply, product_apply, Cert.Rank2.rowBias_vec_apply]
  rw [← hv (colL q), ← hv (colR q)]
  exact halves_apply _ x3 p q

/-! ## The whole array -/

/-- The result array as one function of the four arrays the region reads. -/
def G (agg : S50000x256.Idx → EReal) (wc : S256x256.Idx → EReal) (bc : S1x256.Idx → EReal)
    (eps : S50000x128.Idx → EReal) : S50000x128.Idx → EReal := fun i =>
  sample ((∑ k : Fin 256, agg (ix2 (i 0) k) * wc (ix2 k (colL (i 1)))) + bc (ix2 (0 : Fin 1) (colL (i 1))))
    ((∑ k : Fin 256, agg (ix2 (i 0) k) * wc (ix2 k (colR (i 1)))) + bc (ix2 (0 : Fin 1) (colR (i 1)))) (eps i)

theorem zero_offsets : (![0, 0] : Fin 2 → Nat) = fun _ => 0 := funext fun a => by fin_cases a <;> rfl

/-- The printed index maps, decided over the 25 points: the row-blocked windows sit at block row t, column 0; the
    resident windows at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The array row that row p of point t's blocks is. -/
def rowAt (t : Fin cfg0.N) (p : Fin 2000) : Fin 50000 :=
  ⟨t.val * 2000 + p.val, by have h := lt_of_lt_of_eq t.isLt N_0; have := p.isLt; omega⟩

/-- The function G at an entry. -/
theorem G_apply (agg : S50000x256.Idx → EReal) (wc : S256x256.Idx → EReal) (bc : S1x256.Idx → EReal)
    (eps : S50000x128.Idx → EReal) (n : Fin 50000) (q : Fin 128) :
    G agg wc bc eps (ix2 n q)
      = sample ((∑ k : Fin 256, agg (ix2 n k) * wc (ix2 k (colL q))) + bc (ix2 (0 : Fin 1) (colL q)))
          ((∑ k : Fin 256, agg (ix2 n k) * wc (ix2 k (colR q))) + bc (ix2 (0 : Fin 1) (colR q))) (eps (ix2 n q)) := rfl

/-- Point t's block of the aggregated input holds rows 2000·t … of the array, all 256 columns. -/
theorem read_agg (t : Fin cfg0.N) (A : S50000x256.Idx → EReal) (p : Fin 2000) (k : Fin 256) :
    ((cfg0.win 0).blk t).view.read (Elt Ideal) A (ix2 p k) = A (ix2 (rowAt t p) k) := by
  obtain ⟨a0, a1, -⟩ := idx_facts t
  show A (((cfg0.win 0).blk t).view.emb (ix2 p k)) = _
  congr 1
  funext a; apply Fin.ext
  match a with
  | ⟨0, _⟩ => show win0_0.index t (0 : Fin 2) * 2000 + 1 * p.val = t.val * 2000 + p.val; omega
  | ⟨1, _⟩ => show win0_0.index t (1 : Fin 2) * 256 + 1 * k.val = k.val; omega

/-- Every point's block of the joined weights is the whole array. -/
theorem read_w (t : Fin cfg0.N) (A : S256x256.Idx → EReal) (k q' : Fin 256) :
    ((cfg0.win 1).blk t).view.read (Elt Ideal) A (ix2 k q') = A (ix2 k q') := by
  obtain ⟨-, -, b0, b1, -⟩ := idx_facts t
  show A (((cfg0.win 1).blk t).view.emb (ix2 k q')) = _
  congr 1
  funext a; apply Fin.ext
  match a with
  | ⟨0, _⟩ => show win0_1.index t (0 : Fin 2) * 256 + 1 * k.val = k.val; omega
  | ⟨1, _⟩ => show win0_1.index t (1 : Fin 2) * 256 + 1 * q'.val = q'.val; omega

/-- Every point's block of the joined bias row is the whole row. -/
theorem read_b (t : Fin cfg0.N) (A : S1x256.Idx → EReal) (q' : Fin 256) :
    ((cfg0.win 2).blk t).view.read (Elt Ideal) A (ix2 (0 : Fin 1) q') = A (ix2 (0 : Fin 1) q') := by
  obtain ⟨-, -, -, -, c0, c1, -⟩ := idx_facts t
  show A (((cfg0.win 2).blk t).view.emb (ix2 (0 : Fin 1) q')) = _
  congr 1
  funext a; apply Fin.ext
  match a with
  | ⟨0, _⟩ => show win0_2.index t (0 : Fin 2) * 1 + 1 * 0 = 0; omega
  | ⟨1, _⟩ => show win0_2.index t (1 : Fin 2) * 256 + 1 * q'.val = q'.val; omega

/-- Point t's block of the noise holds rows 2000·t … of the array. -/
theorem read_eps (t : Fin cfg0.N) (A : S50000x128.Idx → EReal) (p : Fin 2000) (q : Fin 128) :
    ((cfg0.win 3).blk t).view.read (Elt Ideal) A (ix2 p q) = A (ix2 (rowAt t p) q) := by
  obtain ⟨-, -, -, -, -, -, d0, d1, -⟩ := idx_facts t
  show A (((cfg0.win 3).blk t).view.emb (ix2 p q)) = _
  congr 1
  funext a; apply Fin.ext
  match a with
  | ⟨0, _⟩ => show win0_3.index t (0 : Fin 2) * 2000 + 1 * p.val = t.val * 2000 + p.val; omega
  | ⟨1, _⟩ => show win0_3.index t (1 : Fin 2) * 128 + 1 * q.val = q.val; omega

/-- Point t's block of the result holds the same rows. -/
theorem read_out (t : Fin cfg0.N) (A : S50000x128.Idx → EReal) (p : Fin 2000) (q : Fin 128) :
    ((cfg0.win 4).blk t).view.read (Elt Ideal) A (ix2 p q) = A (ix2 (rowAt t p) q) := by
  obtain ⟨-, -, -, -, -, -, -, -, e0, e1⟩ := idx_facts t
  show A (((cfg0.win 4).blk t).view.emb (ix2 p q)) = _
  congr 1
  funext a; apply Fin.ext
  match a with
  | ⟨0, _⟩ => show win0_4.index t (0 : Fin 2) * 2000 + 1 * p.val = t.val * 2000 + p.val; omega
  | ⟨1, _⟩ => show win0_4.index t (1 : Fin 2) * 128 + 1 * q.val = q.val; omega

variable (m : (ℓ : Loc nD τ sig) → Buf (Elt Ideal) ℓ)

set_option maxHeartbeats 1000000 in
/-- What point t writes back is block t of G of the region's operand arrays. -/
theorem flushed_eq (c : Dev nD) (t : Fin cfg0.N) :
    (dats m 0 c).flushed 4 t = ((cfg0.win 4).blk t).view.read (Elt Ideal)
      (G (V m c main_v43) (V m c main_v44) (V m c main_v46) (V m c main_arg6)) := by
  rw [Cert.KernelIdeal.Value.flushed4]
  unfold out0_4
  rw [View.canon_unit_zero zero_offsets]
  simp only [View.ld_unit_zero (S := S2000x256) zero_offsets, View.ld_unit_zero (S := S256x256) zero_offsets,
    View.ld_unit_zero (S := S1x256) zero_offsets, View.ld_unit_zero (S := S2000x128) zero_offsets]
  funext j
  obtain ⟨p, q, rfl⟩ : ∃ (p : Fin 2000) (q : Fin 128), j = ix2 p q := ⟨j 0, j 1, eq_ix2 j⟩
  refine (pay_apply (iblk m c 0 t) (iblk m c 1 t) (iblk m c 2 t) (iblk m c 3 t) p q).trans ?_
  have h0 : ∀ k : Fin 256, iblk m c 0 t (ix2 p k) = V m c main_v43 (ix2 (rowAt t p) k) :=
    fun k => read_agg t (V m c main_v43) p k
  have h1 : ∀ k q' : Fin 256, iblk m c 1 t (ix2 k q') = V m c main_v44 (ix2 k q') :=
    fun k q' => read_w t (V m c main_v44) k q'
  have h2 : ∀ q' : Fin 256, iblk m c 2 t (ix2 (0 : Fin 1) q') = V m c main_v46 (ix2 (0 : Fin 1) q') :=
    fun q' => read_b t (V m c main_v46) q'
  have h3 : iblk m c 3 t (ix2 p q) = V m c main_arg6 (ix2 (rowAt t p) q) :=
    read_eps t (V m c main_arg6) p q
  rw [read_out, G_apply]
  simp only [h0, h1, h2, h3]

/-- An index of the array is in point t's block iff each coordinate is in the block's range on its axis. -/
theorem mem_blk (t : Fin cfg0.N) (i : S50000x128.Idx) :
    i ∈ ((cfg0.win 4).blk t).view.set ↔ ∀ a : Fin 2, win0_4.index t a * S2000x128.size a ≤ (i a).val
      ∧ (i a).val < win0_4.index t a * S2000x128.size a + S2000x128.size a := by
  show i ∈ ((View.whole main_v47).slice (win0_4.rect t)).set ↔ _
  rw [View.set_slice_whole, Rect.mem_set_unit]
  exact Iff.rfl

/-- Every row lies in the block of the point that is its number divided by 2000. -/
theorem cover (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  let t : Fin cfg0.N := ⟨(i 0).val / 2000, by rw [show cfg0.N = 25 from N_0]; omega⟩
  obtain ⟨-, -, -, -, -, -, -, -, e0, e1⟩ := idx_facts t
  have ht : t.val = (i 0).val / 2000 := rfl
  refine ⟨t, flush0_4 t, ?_⟩
  rw [mem_blk]
  intro a
  match a with
  | ⟨0, _⟩ =>
    show win0_4.index t (0 : Fin 2) * 2000 ≤ (i 0).val ∧ (i 0).val < win0_4.index t (0 : Fin 2) * 2000 + 2000
    omega
  | ⟨1, _⟩ =>
    show win0_4.index t (1 : Fin 2) * 128 ≤ (i 1).val ∧ (i 1).val < win0_4.index t (1 : Fin 2) * 128 + 128
    omega

/-- The result array after the run is G of the region's operand arrays. -/
theorem final (c : Dev nD) : (dats m 0 c).arrAt 4 cfg0.N
    = G (V m c main_v43) (V m c main_v44) (V m c main_v46) (V m c main_arg6) :=
  (dats m 0 c).arrAt_eq_of_cover 4 _ (fun t _ => flushed_eq m c t) cover

end Cert.KernelBlock

end
-- ==== Proof.Bridge.lean ====
/-
  The two programs compute one function of the inputs.

  Entry (n, q) of the kernel's result is the sample built from ∑ₖ a(n, k) · Wcat(k, ·) + bcat(·) at columns q and
  q + 128, where a is the aggregated input; entry (n, q) of the reference's result is the sample built from the two
  project-first convolutions plus their biases.  Column q of the joined weights is the mean's column q and column
  q + 128 the log-deviation's, likewise for the joined bias, and projecting the aggregated rows is aggregating the
  projected rows (Layer.lean) because the features, the weights, the edge weights and the self-loop weights are all
  real numbers.  The clamp, the exponential and the noise are applied identically on both sides.
-/
import proofs.«152276_j4269197492518_2_alg».proof.Proof.KernelHost
import proofs.«152276_j4269197492518_2_alg».proof.Proof.KernelBlock
import proofs.«152276_j4269197492518_2_alg».proof.Proof.RefAt

noncomputable section

namespace Cert.Bridge

open Idealize.ShloMosaic Idealize.ShloMosaic.ValueIdx
open Cert.KernelIdeal Cert.KernelHost Cert.KernelBlock Cert.Layer Cert.RealArrays
open Cert.RefAt (nodes_pos allReal_coef allReal_self result_apply)
open Cert.ReferenceIdeal.Read (val_main_v26 val_main_v32 val_main_v38 val_main_v40 val_main_v100)
open scoped BigOperators

/-- One half of the kernel's dense stage is one convolution of the reference: the left half with the mean's weights
    and bias … -/
theorem mean_eq (x0 : FVec Ideal S50000x256 .f32) (x1 : IVec S2x800000 32) (x2 x4 : FVec Ideal S256x128 .f32)
    (x3 x5 : FVec Ideal S128 .f32) (h0 : AllReal x0) (h2 : AllReal x2) (n : Fin 50000) (q : Fin 128) :
    (∑ k : Fin 256, aggX x0 x1 (ix2 n k) * wCat x2 x4 (ix2 k (colL q))) + bCat x3 x5 (ix2 (0 : Fin 1) (colL q))
      = convAt nodes_pos x0 x2 (val_main_v32 (F := Ideal) x1) (val_main_v38 (F := Ideal) x1) (val_main_v26 (F := Ideal) x1)
          (val_main_v40 (F := Ideal) x1) n q + x3 (ix1 q) := by
  have hb := bCat_left x3 x5 q (colL q) rfl
  have hp := project_aggAt nodes_pos x0 x2 (val_main_v32 (F := Ideal) x1) (val_main_v38 (F := Ideal) x1)
    (val_main_v26 (F := Ideal) x1) (val_main_v40 (F := Ideal) x1) h0 h2 (allReal_coef x1) (allReal_self x1) n q
  have hs : (∑ k : Fin 256, aggX x0 x1 (ix2 n k) * wCat x2 x4 (ix2 k (colL q)))
      = ∑ k : Fin 256, aggAt nodes_pos x0 (val_main_v32 (F := Ideal) x1) (val_main_v38 (F := Ideal) x1)
          (val_main_v26 (F := Ideal) x1) (val_main_v40 (F := Ideal) x1) n k * x2 (ix2 k q) :=
    Finset.sum_congr rfl fun k _ => by rw [aggX_apply, wCat_left x2 x4 k q (colL q) rfl]
  rw [hb, hs, hp]

/-- … and the right half with the log-deviation's. -/
theorem logstd_eq (x0 : FVec Ideal S50000x256 .f32) (x1 : IVec S2x800000 32) (x2 x4 : FVec Ideal S256x128 .f32)
    (x3 x5 : FVec Ideal S128 .f32) (h0 : AllReal x0) (h4 : AllReal x4) (n : Fin 50000) (q : Fin 128) :
    (∑ k : Fin 256, aggX x0 x1 (ix2 n k) * wCat x2 x4 (ix2 k (colR q))) + bCat x3 x5 (ix2 (0 : Fin 1) (colR q))
      = convAt nodes_pos x0 x4 (val_main_v32 (F := Ideal) x1) (val_main_v38 (F := Ideal) x1) (val_main_v26 (F := Ideal) x1)
          (val_main_v40 (F := Ideal) x1) n q + x5 (ix1 q) := by
  have hb := bCat_right x3 x5 q (colR q) rfl
  have hp := project_aggAt nodes_pos x0 x4 (val_main_v32 (F := Ideal) x1) (val_main_v38 (F := Ideal) x1)
    (val_main_v26 (F := Ideal) x1) (val_main_v40 (F := Ideal) x1) h0 h4 (allReal_coef x1) (allReal_self x1) n q
  have hs : (∑ k : Fin 256, aggX x0 x1 (ix2 n k) * wCat x2 x4 (ix2 k (colR q)))
      = ∑ k : Fin 256, aggAt nodes_pos x0 (val_main_v32 (F := Ideal) x1) (val_main_v38 (F := Ideal) x1)
          (val_main_v26 (F := Ideal) x1) (val_main_v40 (F := Ideal) x1) n k * x4 (ix2 k q) :=
    Finset.sum_congr rfl fun k _ => by rw [aggX_apply, wCat_right x2 x4 k q (colR q) rfl]
  rw [hb, hs, hp]

/-- The kernel's result array is the reference's, for real features and weights. -/
theorem result_eq (x0 : FVec Ideal S50000x256 .f32) (x1 : IVec S2x800000 32) (x2 : FVec Ideal S256x128 .f32)
    (x3 : FVec Ideal S128 .f32) (x4 : FVec Ideal S256x128 .f32) (x5 : FVec Ideal S128 .f32)
    (x6 : FVec Ideal S50000x128 .f32) (h0 : AllReal x0) (h2 : AllReal x2) (h4 : AllReal x4) :
    G (aggX x0 x1) (wCat x2 x4) (bCat x3 x5) x6 = val_main_v100 (F := Ideal) x0 x1 x2 x3 x4 x5 x6 := by
  funext i
  obtain ⟨n, q, rfl⟩ : ∃ (n : Fin 50000) (q : Fin 128), i = ix2 n q := ⟨i 0, i 1, eq_ix2 i⟩
  rw [G_apply, result_apply, mean_eq x0 x1 x2 x4 x3 x5 h0 h2 n q, logstd_eq x0 x1 x2 x4 x3 x5 h0 h4 n q]

end Cert.Bridge

end
-- ==== Proof.lean ====
/-
  A variational graph auto-encoder's encoder: two graph convolutions (mean and log-deviation) over one graph with the
  symmetric normalisation D^(-1/2) (A + I) D^(-1/2), then the sample z = μ + ε · exp(min(ℓ, 10)).

  The reference projects first (x·W, then the normalised neighbourhood sum, then the bias), once per convolution.  The
  kernel aggregates first: the host forms the normalised neighbourhood sum of x ONCE, and one tiled kernel multiplies
  it by the two weight matrices laid side by side, adds the joined biases, and finishes the sample.  The two agree
  because the normalised adjacency acts linearly on rows and so commutes with the right multiplication by W.  On the
  extended reals that needs every factor to be a real number: the features and weights are by the precondition, and the
  normalisation weights are because a degree is one plus a count, so at least one, and its inverse square root is a
  positive real.  A change of float format is the identity at the exact instance, and the matrix product into a zero
  accumulator is the plain contraction, so the kernel's product is the host's.

  The modules: LibAggregateProject (the law on the extended reals), LibEdgeAggregate (the host's edge sum at an entry),
  LibDegreeScale (the normalisation is real), Layer (the two arrangements of one layer), Finite (the precondition read),
  RefAt (the reference at an entry), KernelHost (the region's operands at an entry), KernelBlock (the tiled body and
  the blocks put together), Bridge (the two results are one array).  The frames and the two runs are the generated ones.
-/
import proofs.«152276_j4269197492518_2_alg».proof.Defs
import proofs.«152276_j4269197492518_2_alg».proof.Proof.Gen.Kernel
import proofs.«152276_j4269197492518_2_alg».proof.Proof.Gen.Kernel.Skeleton
import proofs.«152276_j4269197492518_2_alg».proof.Proof.Gen.Kernel.Launch
import proofs.«152276_j4269197492518_2_alg».proof.Proof.Gen.Kernel.Points
import proofs.«152276_j4269197492518_2_alg».proof.Proof.Gen.Kernel.Frame
import proofs.«152276_j4269197492518_2_alg».proof.Proof.Gen.KernelIdeal
import proofs.«152276_j4269197492518_2_alg».proof.Proof.Gen.KernelIdeal.Skeleton
import proofs.«152276_j4269197492518_2_alg».proof.Proof.Gen.KernelIdeal.Launch
import proofs.«152276_j4269197492518_2_alg».proof.Proof.Gen.KernelIdeal.Points
import proofs.«152276_j4269197492518_2_alg».proof.Proof.Gen.KernelIdeal.Frame
import proofs.«152276_j4269197492518_2_alg».proof.Proof.Gen.ReferenceIdeal
import proofs.«152276_j4269197492518_2_alg».proof.Proof.Gen.KernelIdeal.Value
import proofs.«152276_j4269197492518_2_alg».proof.Proof.Gen.ReferenceIdeal.Run
import proofs.«152276_j4269197492518_2_alg».proof.Proof.Gen.ReferenceIdeal.Read
import proofs.«152276_j4269197492518_2_alg».proof.Proof.Gen.Pre_finite_inputs
import proofs.«152276_j4269197492518_2_alg».proof.Proof.Finite
import proofs.«152276_j4269197492518_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's run ends with the result array at the function G of the operands the host built. -/
theorem kernel_run (m : (ℓ : Loc Cert.KernelIdeal.nD Cert.KernelIdeal.τ Cert.KernelIdeal.sig) → Buf (Elt Ideal) ℓ)
    (c : Dev Cert.KernelIdeal.nD) :
    (Cert.KernelIdeal.Gen.dats m 0 c).arrAt 4 Cert.KernelIdeal.cfg0.N
      = Cert.KernelBlock.G
          (Cert.KernelHost.aggX (m ((c : Thread Cert.KernelIdeal.nD Cert.KernelIdeal.τ).loc Cert.KernelIdeal.main_arg0))
            (m ((c : Thread Cert.KernelIdeal.nD Cert.KernelIdeal.τ).loc Cert.KernelIdeal.main_arg1)))
          (Cert.KernelHost.wCat (m ((c : Thread Cert.KernelIdeal.nD Cert.KernelIdeal.τ).loc Cert.KernelIdeal.main_arg2))
            (m ((c : Thread Cert.KernelIdeal.nD Cert.KernelIdeal.τ).loc Cert.KernelIdeal.main_arg4)))
          (Cert.KernelHost.bCat (m ((c : Thread Cert.KernelIdeal.nD Cert.KernelIdeal.τ).loc Cert.KernelIdeal.main_arg3))
            (m ((c : Thread Cert.KernelIdeal.nD Cert.KernelIdeal.τ).loc Cert.KernelIdeal.main_arg5)))
          (m ((c : Thread Cert.KernelIdeal.nD Cert.KernelIdeal.τ).loc Cert.KernelIdeal.main_arg6)) := by
  rw [Cert.KernelBlock.final, Cert.KernelHost.V_agg, Cert.KernelHost.V_wCat, Cert.KernelHost.V_bCat,
    Cert.KernelIdeal.Gen.V_main_arg6]

/-- Both runs end with the same result array: G of the kernel's operands is the reference's last stage (Bridge.lean),
    the features and weights being real under the precondition. -/
theorem algebraic : Cert.algebraic_KernelIdeal_ReferenceIdeal := by
  intro m ρ m' ρ' hpre hagree
  refine ⟨fun c => Cert.KernelBlock.G
      (Cert.KernelHost.aggX (m ((c : Thread Cert.KernelIdeal.nD Cert.KernelIdeal.τ).loc Cert.KernelIdeal.main_arg0))
        (m ((c : Thread Cert.KernelIdeal.nD Cert.KernelIdeal.τ).loc Cert.KernelIdeal.main_arg1)))
      (Cert.KernelHost.wCat (m ((c : Thread Cert.KernelIdeal.nD Cert.KernelIdeal.τ).loc Cert.KernelIdeal.main_arg2))
        (m ((c : Thread Cert.KernelIdeal.nD Cert.KernelIdeal.τ).loc Cert.KernelIdeal.main_arg4)))
      (Cert.KernelHost.bCat (m ((c : Thread Cert.KernelIdeal.nD Cert.KernelIdeal.τ).loc Cert.KernelIdeal.main_arg3))
        (m ((c : Thread Cert.KernelIdeal.nD Cert.KernelIdeal.τ).loc Cert.KernelIdeal.main_arg5)))
      (m ((c : Thread Cert.KernelIdeal.nD Cert.KernelIdeal.τ).loc Cert.KernelIdeal.main_arg6)), ?_, ?_⟩
  · exact (θ_run Cert.KernelIdeal.defs _ _).mono (fun r h c => ⟨(h c).1.trans (kernel_run m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨r0, r2, r4⟩ := Cert.Finite.real_inputs _ _ _ _ _ _ _ (hpre c)
    rw [Cert.ReferenceIdeal.Read.val_main_v100_eq, (hagree c).1, (hagree c).2.1, (hagree c).2.2.1, (hagree c).2.2.2.1,
      (hagree c).2.2.2.2.1, (hagree c).2.2.2.2.2.1, (hagree c).2.2.2.2.2.2]
    exact (Cert.Bridge.result_eq _ _ _ _ _ _ _ r0 r2 r4).symm

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, trivial, algebraic⟩

end Cert.Proof

end
